-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64x256 : Shape := ⟨4, ![16, 64, 64, 256]⟩
abbrev S256x256 : Shape := ⟨2, ![256, 256]⟩
abbrev S256 : Shape := ⟨1, ![256]⟩
abbrev S256x32 : Shape := ⟨2, ![256, 32]⟩
abbrev S32 : Shape := ⟨1, ![32]⟩
abbrev S32x256 : Shape := ⟨2, ![32, 256]⟩
abbrev S_ : Shape := ⟨0, ![]⟩

class Facts : Prop where
  bcast_S_S16x64x64x256 : S_.BroadcastsInDim S16x64x64x256 (![] : Fin 0 → Fin S16x64x64x256.rank)
  reducesTo_S16x64x64x256_S_d0_1_2_3 : S16x64x64x256.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S32x256 : S_.BroadcastsInDim S32x256 (![] : Fin 0 → Fin S32x256.rank)
  reducesTo_S32x256_S_d0_1 : S32x256.ReducesTo [0, 1] S_

variable [Facts]

def fn_part4 {F : FTy → Type} [FloatOps F] (main_arg14 : FVec F S256 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  main_v73

def fn_part3 {F : FTy → Type} [FloatOps F] (main_arg11 : FVec F S32 .f32) (main_arg12 : FVec F S32 .f32) (main_arg13 : FVec F S32x256 .f32) (main_arg14 : FVec F S256 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32 .f32 := Host.absf main_arg12
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x256 .f32 := Host.absf main_arg13
  let main_cst_24 : FVec F S_ .f32 := constant S_ .f32 0x7F800000#32
  let main_v65 : FVec F S32x256 .f32 := broadcastInDim S32x256 ![] bcast_S_S32x256 main_cst_24
  let main_v66 : IVec S32x256 1 := cmpf .olt main_v64 main_v65
  let main_c_25 : IVec S_ 1 := constantI S_ 1 1#1
  let main_v67 : IVec S_ 1 := (fun x v => Host.reduce IntOp.andi x v reducesTo_S32x256_S_d0_1 h_S_) main_v66 main_c_25
  fn_part4 (F := F) main_arg14 main_v63 main_v67

def fn_part2 {F : FTy → Type} [FloatOps F] (main_arg7 : FVec F S256x32 .f32) (main_arg8 : FVec F S32 .f32) (main_arg9 : FVec F S32 .f32) (main_arg10 : FVec F S32 .f32) (main_arg11 : FVec F S32 .f32) (main_arg12 : FVec F S32 .f32) (main_arg13 : FVec F S32x256 .f32) (main_arg14 : FVec F S256 .f32) (main_v33 : IVec S_ 1) : IVec S_ 1 :=
  let main_v34 : FVec F S256x32 .f32 := Host.absf main_arg7
  let main_cst_12 : FVec F S_ .f32 := constant S_ .f32 0x7F800000#32
  let main_v35 : FVec F S256x32 .f32 := broadcastInDim S256x32 ![] bcast_S_S256x32 main_cst_12
  let main_v36 : IVec S256x32 1 := cmpf .olt main_v34 main_v35
  let main_c_13 : IVec S_ 1 := constantI S_ 1 1#1
  let main_v37 : IVec S_ 1 := (fun x v => Host.reduce IntOp.andi x v reducesTo_S256x32_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_arg12 main_arg13 main_arg14 main_v48 main_v49 main_v50

def fn_part1 {F : FTy → Type} [FloatOps F] (main_arg4 : FVec F S256 .f32) (main_arg5 : FVec F S256 .f32) (main_arg6 : FVec F S256 .f32) (main_arg7 : FVec F S256x32 .f32) (main_arg8 : FVec F S32 .f32) (main_arg9 : FVec F S32 .f32) (main_arg10 : FVec F S32 .f32) (main_arg11 : FVec F S32 .f32) (main_arg12 : FVec F S32 .f32) (main_arg13 : FVec F S32x256 .f32) (main_arg14 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S16x64x64x256 .f32) (main_arg1 : FVec F S256x256 .f32) (main_arg2 : FVec F S256 .f32) (main_arg3 : FVec F S256 .f32) (main_arg4 : FVec F S256 .f32) (main_arg5 : FVec F S256 .f32) (main_arg6 : FVec F S256 .f32) (main_arg7 : FVec F S256x32 .f32) (main_arg8 : FVec F S32 .f32) (main_arg9 : FVec F S32 .f32) (main_arg10 : FVec F S32 .f32) (main_arg11 : FVec F S32 .f32) (main_arg12 : FVec F S32 .f32) (main_arg13 : FVec F S32x256 .f32) (main_arg14 : FVec F S256 .f32) : IVec S_ 1 :=
  let main_v0 : FVec F S16x64x64x256 .f32 := Host.absf main_arg0
  let main_cst : FVec F S_ .f32 := constant S_ .f32 0x7F800000#32
  let main_v1 : FVec F S16x64x64x256 .f32 := broadcastInDim S16x64x64x256 ![] bcast_S_S16x64x64x256 main_cst
  let main_v2 : IVec S16x64x64x256 1 := cmpf .olt main_v0 main_v1
  let main_c : IVec S_ 1 := constantI S_ 1 1#1
  let main_v3 : IVec S_ 1 := (fun x v => Host.reduce IntOp.andi x v reducesTo_S16x64x64x256_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S16x64x64x256 : Shape := ⟨4, ![16, 64, 64, 256]⟩
abbrev S256x256 : Shape := ⟨2, ![256, 256]⟩
abbrev S256 : Shape := ⟨1, ![256]⟩
abbrev S256x32 : Shape := ⟨2, ![256, 32]⟩
abbrev S32 : Shape := ⟨1, ![32]⟩
abbrev S32x256 : Shape := ⟨2, ![32, 256]⟩
abbrev S1x64x64x256 : Shape := ⟨4, ![1, 64, 64, 256]⟩
abbrev S64x64x256 : Shape := ⟨3, ![64, 64, 256]⟩
abbrev S4096x256 : Shape := ⟨2, ![4096, 256]⟩
abbrev S1x256 : Shape := ⟨2, ![1, 256]⟩
abbrev S1x64x256 : Shape := ⟨3, ![1, 64, 256]⟩
abbrev S65x64x256 : Shape := ⟨3, ![65, 64, 256]⟩
abbrev S66x64x256 : Shape := ⟨3, ![66, 64, 256]⟩
abbrev S66x1x256 : Shape := ⟨3, ![66, 1, 256]⟩
abbrev S66x65x256 : Shape := ⟨3, ![66, 65, 256]⟩
abbrev S66x66x256 : Shape := ⟨3, ![66, 66, 256]⟩
abbrev S1x1x256 : Shape := ⟨3, ![1, 1, 256]⟩
abbrev S4096x32 : Shape := ⟨2, ![4096, 32]⟩
abbrev S1x32 : Shape := ⟨2, ![1, 32]⟩
abbrev S4096 : Shape := ⟨1, ![4096]⟩
abbrev S4096x1 : Shape := ⟨2, ![4096, 1]⟩

abbrev nBuf : Space → Nat
  | .hbm => 16
  | .vmem => 18
  | .smem => 0
  | _ => 0

abbrev bufTy : (tb : Table) → Fin (tcTables nBuf tb) → BufTy
  | .hbm, ⟨0, _⟩ => ⟨S16x64x64x256, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256x32, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S32x256, .f32⟩
  | .hbm, ⟨14, _⟩ => ⟨S256, .f32⟩
  | .hbm, ⟨15, _⟩ => ⟨S16x64x64x256, .f32⟩
  | .local _ .vmem, ⟨0, _⟩ => ⟨S1x64x64x256, .f32⟩
  | .local _ .vmem, ⟨1, _⟩ => ⟨S1x64x64x256, .f32⟩
  | .local _ .vmem, ⟨2, _⟩ => ⟨S256x256, .f32⟩
  | .local _ .vmem, ⟨3, _⟩ => ⟨S256, .f32⟩
  | .local _ .vmem, ⟨4, _⟩ => ⟨S256, .f32⟩
  | .local _ .vmem, ⟨5, _⟩ => ⟨S256, .f32⟩
  | .local _ .vmem, ⟨6, _⟩ => ⟨S256, .f32⟩
  | .local _ .vmem, ⟨7, _⟩ => ⟨S256, .f32⟩
  | .local _ .vmem, ⟨8, _⟩ => ⟨S256x32, .f32⟩
  | .local _ .vmem, ⟨9, _⟩ => ⟨S32, .f32⟩
  | .local _ .vmem, ⟨10, _⟩ => ⟨S32, .f32⟩
  | .local _ .vmem, ⟨11, _⟩ => ⟨S32, .f32⟩
  | .local _ .vmem, ⟨12, _⟩ => ⟨S32, .f32⟩
  | .local _ .vmem, ⟨13, _⟩ => ⟨S32, .f32⟩
  | .local _ .vmem, ⟨14, _⟩ => ⟨S32x256, .f32⟩
  | .local _ .vmem, ⟨15, _⟩ => ⟨S256, .f32⟩
  | .local _ .vmem, ⟨16, _⟩ => ⟨S1x64x64x256, .f32⟩
  | .local _ .vmem, ⟨17, _⟩ => ⟨S1x64x64x256, .f32⟩
  | _, _ => ⟨S16x64x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x64x64x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  inb_S1x64x64x256_S1x64x64x256_0_0_0_0 : ∀ a, (![0, 0, 0, 0] : Fin 4 → Nat) a + S1x64x64x256.size a ≤ S1x64x64x256.size a
  h_S1x64x64x256 : 0 < S1x64x64x256.numel
  shapeCasts_S1x64x64x256_S64x64x256 : S1x64x64x256.ShapeCasts S64x64x256
  shapeCasts_S64x64x256_S4096x256 : S64x64x256.ShapeCasts S4096x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  shapeCasts_S4096x256_S64x64x256 : S4096x256.ShapeCasts S64x64x256
  concatenates_S1x64x256_S64x64x256_S65x64x256_d0 : Shape.Concatenates [S1x64x256, S64x64x256] S65x64x256 0
  concatenates_S65x64x256_S1x64x256_S66x64x256_d0 : Shape.Concatenates [S65x64x256, S1x64x256] S66x64x256 0
  concatenates_S66x1x256_S66x64x256_S66x65x256_d1 : Shape.Concatenates [S66x1x256, S66x64x256] S66x65x256 1
  concatenates_S66x65x256_S66x1x256_S66x66x256_d1 : Shape.Concatenates [S66x65x256, S66x1x256] S66x66x256 1
  slices_S66x66x256_o0_0_0_S64x64x256 : S66x66x256.Slices ![0, 0, 0] S64x64x256
  slices_S66x66x256_o0_1_0_S64x64x256 : S66x66x256.Slices ![0, 1, 0] S64x64x256
  slices_S66x66x256_o0_2_0_S64x64x256 : S66x66x256.Slices ![0, 2, 0] S64x64x256
  slices_S66x66x256_o1_0_0_S64x64x256 : S66x66x256.Slices ![1, 0, 0] S64x64x256
  slices_S66x66x256_o1_1_0_S64x64x256 : S66x66x256.Slices ![1, 1, 0] S64x64x256
  slices_S66x66x256_o1_2_0_S64x64x256 : S66x66x256.Slices ![1, 2, 0] S64x64x256
  slices_S66x66x256_o2_0_0_S64x64x256 : S66x66x256.Slices ![2, 0, 0] S64x64x256
  slices_S66x66x256_o2_1_0_S64x64x256 : S66x66x256.Slices ![2, 1, 0] S64x64x256
  slices_S66x66x256_o2_2_0_S64x64x256 : S66x66x256.Slices ![2, 2, 0] S64x64x256
  shapeCasts_S256_S1x1x256 : S256.ShapeCasts S1x1x256
  broadcasts_S1x1x256_S64x64x256 : S1x1x256.Broadcasts S64x64x256
  inb_S256x32_S256x32_0_0 : ∀ a, (![0, 0] : Fin 2 → Nat) a + S256x32.size a ≤ S256x32.size a
  h_S256x32 : 0 < S256x32.numel
  inb_S32_S32_0 : ∀ a, (![0] : Fin 1 → Nat) a + S32.size a ≤ S32.size a
  h_S32 : 0 < S32.numel
  shapeCasts_S32_S1x32 : S32.ShapeCasts S1x32
  broadcasts_S1x32_S4096x32 : S1x32.Broadcasts S4096x32
  inb_S32x256_S32x256_0_0 : ∀ a, (![0, 0] : Fin 2 → Nat) a + S32x256.size a ≤ S32x256.size a
  h_S32x256 : 0 < S32x256.numel
  reduces_S4096x256_S4096 : S4096x256.Reduces [1] S4096
  shapeCasts_S4096_S4096x1 : S4096.ShapeCasts S4096x1
  broadcasts_S4096x1_S4096x256 : S4096x1.Broadcasts S4096x256
  shapeCasts_S64x64x256_S1x64x64x256 : S64x64x256.ShapeCasts S1x64x64x256
  dot_S4096x256_S256x256_S4096x256_1_0_0_1_n_n_wf : DotDims.WF S4096x256 S256x256 S4096x256 [1] [0] [0] [1] [] []
  dot_S4096x256_S256x32_S4096x32_1_0_0_1_n_n_wf : DotDims.WF S4096x256 S256x32 S4096x32 [1] [0] [0] [1] [] []
  dot_S4096x32_S32x256_S4096x256_1_0_0_1_n_n_wf : DotDims.WF S4096x32 S32x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x256.size a ≤ S16x64x64x256.size a
  hwx0_0 : ∀ i : grid0.Coords, EltTy.bits .f32 = 32 ∨ (Rect.block (s := S16x64x64x256) S1x64x64x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x32.size a ≤ S256x32.size a
  hwx0_7 : ∀ i : grid0.Coords, EltTy.bits .f32 = 32 ∨ (Rect.block (s := S256x32) S256x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32.size a ≤ S32.size a
  hwx0_8 : ∀ i : grid0.Coords, EltTy.bits .f32 = 32 ∨ (Rect.block (s := S32) S32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32.size a ≤ S32.size a
  hwx0_9 : ∀ i : grid0.Coords, EltTy.bits .f32 = 32 ∨ (Rect.block (s := S32) S32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32.size a ≤ S32.size a
  hwx0_10 : ∀ i : grid0.Coords, EltTy.bits .f32 = 32 ∨ (Rect.block (s := S32) S32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S32.size a ≤ S32.size a
  hwx0_11 : ∀ i : grid0.Coords, EltTy.bits .f32 = 32 ∨ (Rect.block (s := S32) S32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S32.size a ≤ S32.size a
  hwx0_12 : ∀ i : grid0.Coords, EltTy.bits .f32 = 32 ∨ (Rect.block (s := S32) S32.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S32x256.size a ≤ S32x256.size a
  hwx0_13 : ∀ i : grid0.Coords, EltTy.bits .f32 = 32 ∨ (Rect.block (s := S32x256) S32x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256.size a ≤ S256.size a
  hwx0_14 : ∀ i : grid0.Coords, EltTy.bits .f32 = 32 ∨ (Rect.block (s := S256) S256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x64x64x256.size a ≤ S16x64x64x256.size a
  hwx0_15 : ∀ i : grid0.Coords, EltTy.bits .f32 = 32 ∨ (Rect.block (s := S16x64x64x256) S1x64x64x256.size (cc0_transform_15 i) (hinb0_15 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x32_S4096x32_1_0_0_1_n_n : DotDims S4096x256 S256x32 S4096x32 where
  lhsContracting := [1]
  rhsContracting := [0]
  lhsNonContracting := [0]
  rhsNonContracting := [1]
  lhsBatch := []
  rhsBatch := []
  wf := dot_S4096x256_S256x32_S4096x32_1_0_0_1_n_n_wf
def dot_S4096x32_S32x256_S4096x256_1_0_0_1_n_n : DotDims S4096x32 S32x256 S4096x256 where
  lhsContracting := [1]
  rhsContracting := [0]
  lhsNonContracting := [0]
  rhsNonContracting := [1]
  lhsBatch := []
  rhsBatch := []
  wf := dot_S4096x32_S32x256_S4096x256_1_0_0_1_n_n_wf

abbrev win0_0 : Pipeline.Window sig grid0 :=
  Pipeline.Window.ofSpec (Memref.whole main_arg0) S1x64x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S32x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v0) S1x64x64x256.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S16x64x64x256 : Shape := ⟨4, ![16, 64, 64, 256]⟩
abbrev S256x256 : Shape := ⟨2, ![256, 256]⟩
abbrev S256 : Shape := ⟨1, ![256]⟩
abbrev S256x32 : Shape := ⟨2, ![256, 32]⟩
abbrev S32 : Shape := ⟨1, ![32]⟩
abbrev S32x256 : Shape := ⟨2, ![32, 256]⟩
abbrev S1x1x1x256 : Shape := ⟨4, ![1, 1, 1, 256]⟩
abbrev S_ : Shape := ⟨0, ![]⟩
abbrev S16x66x66x256 : Shape := ⟨4, ![16, 66, 66, 256]⟩
abbrev S16x64x64x32 : Shape := ⟨4, ![16, 64, 64, 32]⟩
abbrev S1x1x1x32 : Shape := ⟨4, ![1, 1, 1, 32]⟩
abbrev S16x64x64 : Shape := ⟨3, ![16, 64, 64]⟩
abbrev S16x64x64x1 : Shape := ⟨4, ![16, 64, 64, 1]⟩

abbrev nBuf : Space → Nat
  | .hbm => 103
  | .vmem => 0
  | .smem => 0
  | _ => 0

abbrev bufTy : (tb : Table) → Fin (tcTables nBuf tb) → BufTy
  | .hbm, ⟨0, _⟩ => ⟨S16x64x64x256, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256x32, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S32x256, .f32⟩
  | .hbm, ⟨14, _⟩ => ⟨S256, .f32⟩
  | .hbm, ⟨15, _⟩ => ⟨S16x64x64x256, .f32⟩
  | .hbm, ⟨16, _⟩ => ⟨S1x1x1x256, .f32⟩
  | .hbm, ⟨17, _⟩ => ⟨S16x64x64x256, .f32⟩
  | .hbm, ⟨18, _⟩ => ⟨S16x64x64x256, .f32⟩
  | .hbm, ⟨19, _⟩ => ⟨S_, .i32⟩
  | .hbm, ⟨20, _⟩ => ⟨S_, .f32⟩
  | .hbm, ⟨21, _⟩ => ⟨S16x66x66x256, .f32⟩
  | .hbm, ⟨22, _⟩ => ⟨S_, .f32⟩
  | .hbm, ⟨23, _⟩ => ⟨S16x64x64x256, .f32⟩
  | .hbm, ⟨24, _⟩ => ⟨S16x64x64x256, .f32⟩
  | .hbm, ⟨25, _⟩ => ⟨S16x64x64x256, .f32⟩
  | .hbm, ⟨26, _⟩ => ⟨S16x64x64x256, .f32⟩
  | .hbm, ⟨27, _⟩ => ⟨S16x64x64x256, .f32⟩
  | .hbm, ⟨28, _⟩ => ⟨S16x64x64x256, .f32⟩
  | .hbm, ⟨29, _⟩ => ⟨S16x64x64x256, .f32⟩
  | .hbm, ⟨30, _⟩ => ⟨S16x64x64x256, .f32⟩
  | .hbm, ⟨31, _⟩ => ⟨S16x64x64x256, .f32⟩
  | .hbm, ⟨32, _⟩ => ⟨S16x64x64x256, .f32⟩
  | .hbm, ⟨33, _⟩ => ⟨S16x64x64x256, .f32⟩
  | .hbm, ⟨34, _⟩ => ⟨S16x64x64x256, .f32⟩
  | .hbm, ⟨35, _⟩ => ⟨S16x64x64x256, .f32⟩
  | .hbm, ⟨36, _⟩ => ⟨S16x64x64x256, .f32⟩
  | .hbm, ⟨37, _⟩ => ⟨S16x64x64x256, .f32⟩
  | .hbm, ⟨38, _⟩ => ⟨S16x64x64x256, .f32⟩
  | .hbm, ⟨39, _⟩ => ⟨S16x64x64x256, .f32⟩
  | .hbm, ⟨40, _⟩ => ⟨S16x64x64x256, .f32⟩
  | .hbm, ⟨41, _⟩ => ⟨S16x64x64x256, .f32⟩
  | .hbm, ⟨42, _⟩ => ⟨S1x1x1x256, .f32⟩
  | .hbm, ⟨43, _⟩ => ⟨S16x64x64x256, .f32⟩
  | .hbm, ⟨44, _⟩ => ⟨S16x64x64x256, .f32⟩
  | .hbm, ⟨45, _⟩ => ⟨S_, .f32⟩
  | .hbm, ⟨46, _⟩ => ⟨S256, .f32⟩
  | .hbm, ⟨47, _⟩ => ⟨S256, .f32⟩
  | .hbm, ⟨48, _⟩ => ⟨S256, .f32⟩
  | .hbm, ⟨49, _⟩ => ⟨S1x1x1x256, .f32⟩
  | .hbm, ⟨50, _⟩ => ⟨S16x64x64x256, .f32⟩
  | .hbm, ⟨51, _⟩ => ⟨S16x64x64x256, .f32⟩
  | .hbm, ⟨52, _⟩ => ⟨S1x1x1x256, .f32⟩
  | .hbm, ⟨53, _⟩ => ⟨S16x64x64x256, .f32⟩
  | .hbm, ⟨54, _⟩ => ⟨S16x64x64x256, .f32⟩
  | .hbm, ⟨55, _⟩ => ⟨S1x1x1x256, .f32⟩
  | .hbm, ⟨56, _⟩ => ⟨S16x64x64x256, .f32⟩
  | .hbm, ⟨57, _⟩ => ⟨S16x64x64x256, .f32⟩
  | .hbm, ⟨58, _⟩ => ⟨S16x64x64x32, .f32⟩
  | .hbm, ⟨59, _⟩ => ⟨S1x1x1x32, .f32⟩
  | .hbm, ⟨60, _⟩ => ⟨S16x64x64x32, .f32⟩
  | .hbm, ⟨61, _⟩ => ⟨S16x64x64x32, .f32⟩
  | .hbm, ⟨62, _⟩ => ⟨S_, .f32⟩
  | .hbm, ⟨63, _⟩ => ⟨S16x64x64x32, .f32⟩
  | .hbm, ⟨64, _⟩ => ⟨S16x64x64x32, .f32⟩
  | .hbm, ⟨65, _⟩ => ⟨S1x1x1x32, .f32⟩
  | .hbm, ⟨66, _⟩ => ⟨S16x64x64x32, .f32⟩
  | .hbm, ⟨67, _⟩ => ⟨S16x64x64x32, .f32⟩
  | .hbm, ⟨68, _⟩ => ⟨S_, .f32⟩
  | .hbm, ⟨69, _⟩ => ⟨S32, .f32⟩
  | .hbm, ⟨70, _⟩ => ⟨S32, .f32⟩
  | .hbm, ⟨71, _⟩ => ⟨S32, .f32⟩
  | .hbm, ⟨72, _⟩ => ⟨S1x1x1x32, .f32⟩
  | .hbm, ⟨73, _⟩ => ⟨S16x64x64x32, .f32⟩
  | .hbm, ⟨74, _⟩ => ⟨S16x64x64x32, .f32⟩
  | .hbm, ⟨75, _⟩ => ⟨S1x1x1x32, .f32⟩
  | .hbm, ⟨76, _⟩ => ⟨S16x64x64x32, .f32⟩
  | .hbm, ⟨77, _⟩ => ⟨S16x64x64x32, .f32⟩
  | .hbm, ⟨78, _⟩ => ⟨S1x1x1x32, .f32⟩
  | .hbm, ⟨79, _⟩ => ⟨S16x64x64x32, .f32⟩
  | .hbm, ⟨80, _⟩ => ⟨S16x64x64x32, .f32⟩
  | .hbm, ⟨81, _⟩ => ⟨S16x64x64x256, .f32⟩
  | .hbm, ⟨82, _⟩ => ⟨S1x1x1x256, .f32⟩
  | .hbm, ⟨83, _⟩ => ⟨S16x64x64x256, .f32⟩
  | .hbm, ⟨84, _⟩ => ⟨S16x64x64x256, .f32⟩
  | .hbm, ⟨85, _⟩ => ⟨S_, .f32⟩
  | .hbm, ⟨86, _⟩ => ⟨S16x64x64x256, .f32⟩
  | .hbm, ⟨87, _⟩ => ⟨S16x64x64x256, .f32⟩
  | .hbm, ⟨88, _⟩ => ⟨S_, .f32⟩
  | .hbm, ⟨89, _⟩ => ⟨S16x64x64, .f32⟩
  | .hbm, ⟨90, _⟩ => ⟨S_, .f32⟩
  | .hbm, ⟨91, _⟩ => ⟨S16x64x64, .f32⟩
  | .hbm, ⟨92, _⟩ => ⟨S16x64x64, .f32⟩
  | .hbm, ⟨93, _⟩ => ⟨S16x64x64x1, .f32⟩
  | .hbm, ⟨94, _⟩ => ⟨S16x64x64x256, .f32⟩
  | .hbm, ⟨95, _⟩ => ⟨S16x64x64x256, .f32⟩
  | .hbm, ⟨96, _⟩ => ⟨S16x64x64x256, .f32⟩
  | .hbm, ⟨97, _⟩ => ⟨S_, .f32⟩
  | .hbm, ⟨98, _⟩ => ⟨S16x64x64, .f32⟩
  | .hbm, ⟨99, _⟩ => ⟨S16x64x64x1, .f32⟩
  | .hbm, ⟨100, _⟩ => ⟨S16x64x64x256, .f32⟩
  | .hbm, ⟨101, _⟩ => ⟨S16x64x64x256, .f32⟩
  | .hbm, ⟨102, _⟩ => ⟨S16x64x64x256, .f32⟩
  | _, _ => ⟨S16x64x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_call0_v0 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_0 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call1_cst : Ref sig .tc := ⟨.hbm, 62, rfl⟩
abbrev main_call1_v0 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_1 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_call2_cst : Ref sig .tc := ⟨.hbm, 85, rfl⟩
abbrev main_call2_v0 : Ref sig .tc := ⟨.hbm, 86, rfl⟩
abbrev main_v63 : Ref sig .tc := ⟨.hbm, 87, rfl⟩
abbrev main_cst_2 : Ref sig .tc := ⟨.hbm, 88, rfl⟩
abbrev main_v64 : Ref sig .tc := ⟨.hbm, 89, rfl⟩
abbrev main_cst_3 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_4 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩

abbrev nD : Nat := 1
abbrev τ : Topo := Topo.v7x

variable {F : FTy → Type} [FloatOps F]

class Facts₀ : Prop where
  bcast_S256_S1x1x1x256_3 : S256.BroadcastsInDim S1x1x1x256 (![3] : Fin 1 → Fin S1x1x1x256.rank)
  bcast_S1x1x1x256_S16x64x64x256_0_1_2_3 : S1x1x1x256.BroadcastsInDim S16x64x64x256 (![0, 1, 2, 3] : Fin 4 → Fin S16x64x64x256.rank)
  pads_S16x64x64x256_S16x66x66x256_000_110_110_000 : S16x64x64x256.Pads (![0, 1, 1, 0] : Fin 4 → Nat) ![0, 1, 1, 0] ![0, 0, 0, 0] S16x66x66x256
  h_S_ : 0 < S_.numel
  bcast_S_S16x64x64x256 : S_.BroadcastsInDim S16x64x64x256 (![] : Fin 0 → Fin S16x64x64x256.rank)
  slices_S16x66x66x256_S16x64x64x256_0_0_0_0 : S16x66x66x256.Slices ![0, 0, 0, 0] S16x64x64x256
  slices_S16x66x66x256_S16x64x64x256_0_0_1_0 : S16x66x66x256.Slices ![0, 0, 1, 0] S16x64x64x256
  slices_S16x66x66x256_S16x64x64x256_0_0_2_0 : S16x66x66x256.Slices ![0, 0, 2, 0] S16x64x64x256
  slices_S16x66x66x256_S16x64x64x256_0_1_0_0 : S16x66x66x256.Slices ![0, 1, 0, 0] S16x64x64x256
  slices_S16x66x66x256_S16x64x64x256_0_1_1_0 : S16x66x66x256.Slices ![0, 1, 1, 0] S16x64x64x256
  slices_S16x66x66x256_S16x64x64x256_0_1_2_0 : S16x66x66x256.Slices ![0, 1, 2, 0] S16x64x64x256
  slices_S16x66x66x256_S16x64x64x256_0_2_0_0 : S16x66x66x256.Slices ![0, 2, 0, 0] S16x64x64x256
  slices_S16x66x66x256_S16x64x64x256_0_2_1_0 : S16x66x66x256.Slices ![0, 2, 1, 0] S16x64x64x256
  slices_S16x66x66x256_S16x64x64x256_0_2_2_0 : S16x66x66x256.Slices ![0, 2, 2, 0] S16x64x64x256
  bcast_S_S256 : S_.BroadcastsInDim S256 (![] : Fin 0 → Fin S256.rank)
  bcast_S32_S1x1x1x32_3 : S32.BroadcastsInDim S1x1x1x32 (![3] : Fin 1 → Fin S1x1x1x32.rank)
  bcast_S1x1x1x32_S16x64x64x32_0_1_2_3 : S1x1x1x32.BroadcastsInDim S16x64x64x32 (![0, 1, 2, 3] : Fin 4 → Fin S16x64x64x32.rank)
  bcast_S_S16x64x64x32 : S_.BroadcastsInDim S16x64x64x32 (![] : Fin 0 → Fin S16x64x64x32.rank)
  bcast_S_S32 : S_.BroadcastsInDim S32 (![] : Fin 0 → Fin S32.rank)
  reducesTo_S16x64x64x256_S16x64x64_d3 : S16x64x64x256.ReducesTo [3] S16x64x64
  bcast_S_S16x64x64 : S_.BroadcastsInDim S16x64x64 (![] : Fin 0 → Fin S16x64x64.rank)
  bcast_S16x64x64_S16x64x64x1_0_1_2 : S16x64x64.BroadcastsInDim S16x64x64x1 (![0, 1, 2] : Fin 3 → Fin S16x64x64x1.rank)
  bcast_S16x64x64x1_S16x64x64x256_0_1_2_3 : S16x64x64x1.BroadcastsInDim S16x64x64x256 (![0, 1, 2, 3] : Fin 4 → Fin S16x64x64x256.rank)
  dot_S16x64x64x256_S256x256_S16x64x64x256_3_0_012_1_n_n_wf : DotDims.WF S16x64x64x256 S256x256 S16x64x64x256 [3] [0] [0, 1, 2] [1] [] []
  dot_S16x64x64x256_S256x32_S16x64x64x32_3_0_012_1_n_n_wf : DotDims.WF S16x64x64x256 S256x32 S16x64x64x32 [3] [0] [0, 1, 2] [1] [] []
  dot_S16x64x64x32_S32x256_S16x64x64x256_3_0_012_1_n_n_wf : DotDims.WF S16x64x64x32 S32x256 S16x64x64x256 [3] [0] [0, 1, 2] [1] [] []

variable [Facts₀]

def dot_S16x64x64x256_S256x256_S16x64x64x256_3_0_012_1_n_n : DotDims S16x64x64x256 S256x256 S16x64x64x256 where
  lhsContracting := [3]
  rhsContracting := [0]
  lhsNonContracting := [0, 1, 2]
  rhsNonContracting := [1]
  lhsBatch := []
  rhsBatch := []
  wf := dot_S16x64x64x256_S256x256_S16x64x64x256_3_0_012_1_n_n_wf
def dot_S16x64x64x256_S256x32_S16x64x64x32_3_0_012_1_n_n : DotDims S16x64x64x256 S256x32 S16x64x64x32 where
  lhsContracting := [3]
  rhsContracting := [0]
  lhsNonContracting := [0, 1, 2]
  rhsNonContracting := [1]
  lhsBatch := []
  rhsBatch := []
  wf := dot_S16x64x64x256_S256x32_S16x64x64x32_3_0_012_1_n_n_wf
def dot_S16x64x64x32_S32x256_S16x64x64x256_3_0_012_1_n_n : DotDims S16x64x64x32 S32x256 S16x64x64x256 where
  lhsContracting := [3]
  rhsContracting := [0]
  lhsNonContracting := [0, 1, 2]
  rhsNonContracting := [1]
  lhsBatch := []
  rhsBatch := []
  wf := dot_S16x64x64x32_S32x256_S16x64x64x256_3_0_012_1_n_n_wf

class Facts : Prop extends Facts₀ where

variable [Facts]
-- ==== Proof.Spec.lean ====
/-
  The function both programs compute, index by index, on the extended reals.

  For an image batch `x[b, h, w, c]` (16 × 64 × 64 × 256) the result at (b, h, w, f) is the product of an attention
  weight and a neighbourhood sum:

  * the value path mixes channels at every pixel, `conv = (Σ_c x·w3) + b3`, pads the image by one pixel of the
    padding value on each side of its two spatial axes, and adds up the nine entries of the 3 × 3 window whose
    top-left corner is the pixel (row offsets outermost), starting from the zero word;
  * the attention path normalises each channel, `(x − mean)·rsqrt(var + ε)·γ + β`, mixes 256 channels down to 32,
    adds a bias and clamps at zero, normalises again, mixes 32 channels up to 256, adds a bias and clamps at zero,
    and takes the softmax over the 256 channels of the pixel: the exponential of the entry less the row maximum,
    divided by the sum of those exponentials.

  Every stage is stated over explicit coordinates, so that each program's text can be read against it one stage at
  a time. No law of arithmetic is used anywhere: the two programs apply the same operations in the same order.
-/
import Idealize.ShloMosaic.PureOps.Ideal
import Idealize.ShloMosaic.Lib.ValueIdx

noncomputable section

namespace Cert.Spec

open Idealize.ShloMosaic Idealize.ShloMosaic.ValueIdx

/-- A batch of images, [16, 64, 64, 256]. -/
abbrev Img : Type := (⟨4, ![16, 64, 64, 256]⟩ : Shape).Idx → EReal
/-- A matrix of weights. -/
abbrev Mat (r c : Nat) : Type := (⟨2, ![r, c]⟩ : Shape).Idx → EReal
/-- A vector of per-channel parameters. -/
abbrev Row (n : Nat) : Type := (⟨1, ![n]⟩ : Shape).Idx → EReal

/-- The variance offset ε, the single-precision number nearest 0.001, as both programs spell it. -/
abbrev eps : EReal := Ideal.ofBits .f32 0x3A83126F#32
/-- The zero word. -/
abbrev zeroW : EReal := Ideal.ofBits .f32 0x00000000#32
/-- The word of −∞, the neutral element the row maximum starts from. -/
abbrev negInfW : EReal := Ideal.ofBits .f32 0xFF800000#32
/-- The padding value: the integer zero converted to a float. -/
abbrev padW : EReal := (((0#32 : BitVec 32).toInt : ℝ) : EReal)

section Stages

variable (x : Img) (w3 : Mat 256 256) (b3 : Row 256)
variable (g1 be1 mu1 var1 : Row 256) (wa1 : Mat 256 32) (ba1 : Row 32)
variable (g2 be2 mu2 var2 : Row 32) (wa2 : Mat 32 256) (ba2 : Row 256)

/-- The value path's channel mix at a pixel. -/
def conv (b : Fin 16) (h w : Fin 64) (f : Fin 256) : EReal :=
  (∑ c : Fin 256, x (ix4 b h w c) * w3 (ix2 c f)) + b3 (ix1 f)

/-- The mixed image padded by one pixel on each side: entry (i, j) of the 66 × 66 padded image is the mixed image's
    entry (i − 1, j − 1) when both lie in 1 … 64, and the padding value on the border. -/
def padded (b : Fin 16) (i j : Nat) (f : Fin 256) : EReal :=
  if hij : (1 ≤ i ∧ i ≤ 64) ∧ (1 ≤ j ∧ j ≤ 64) then
    conv x w3 b3 b ⟨i - 1, by omega⟩ ⟨j - 1, by omega⟩ f
  else padW

/-- The sum over the 3 × 3 window, in the order both programs add it: from the zero word, row offset 0, 1, 2 and
    within each the column offsets 0, 1, 2. -/
def taps (b : Fin 16) (h w : Fin 64) (f : Fin 256) : EReal :=
  ((((((((zeroW + padded x w3 b3 b h.val w.val f) + padded x w3 b3 b h.val (w.val + 1) f)
    + padded x w3 b3 b h.val (w.val + 2) f) + padded x w3 b3 b (h.val + 1) w.val f)
    + padded x w3 b3 b (h.val + 1) (w.val + 1) f) + padded x w3 b3 b (h.val + 1) (w.val + 2) f)
    + padded x w3 b3 b (h.val + 2) w.val f) + padded x w3 b3 b (h.val + 2) (w.val + 1) f)
    + padded x w3 b3 b (h.val + 2) (w.val + 2) f

/-- The first normalisation, per input channel. -/
def norm1 (b : Fin 16) (h w : Fin 64) (c : Fin 256) : EReal :=
  ((x (ix4 b h w c) - mu1 (ix1 c)) * Ideal.rsqrt (var1 (ix1 c) + eps)) * g1 (ix1 c) + be1 (ix1 c)

/-- The first attention layer: 256 channels to 32, bias, clamp at zero. -/
def hidden (b : Fin 16) (h w : Fin 64) (a : Fin 32) : EReal :=
  max ((∑ c : Fin 256, norm1 x g1 be1 mu1 var1 b h w c * wa1 (ix2 c a)) + ba1 (ix1 a)) zeroW

/-- The second normalisation, per hidden channel. -/
def norm2 (b : Fin 16) (h w : Fin 64) (a : Fin 32) : EReal :=
  ((hidden x g1 be1 mu1 var1 wa1 ba1 b h w a - mu2 (ix1 a)) * Ideal.rsqrt (var2 (ix1 a) + eps)) * g2 (ix1 a)
    + be2 (ix1 a)

/-- The second attention layer: 32 channels to 256, bias, clamp at zero. -/
def logit (b : Fin 16) (h w : Fin 64) (f : Fin 256) : EReal :=
  max ((∑ a : Fin 32, norm2 x g1 be1 mu1 var1 wa1 ba1 g2 be2 mu2 var2 b h w a * wa2 (ix2 a f)) + ba2 (ix1 f)) zeroW

/-- The largest logit of a pixel's 256 channels, taken from −∞ (and compared with −∞ once more, as both programs do). -/
def rowMax (b : Fin 16) (h w : Fin 64) : EReal :=
  max negInfW ((Finset.univ : Finset (Fin 256)).fold max negInfW
    (fun f => logit x g1 be1 mu1 var1 wa1 ba1 g2 be2 mu2 var2 wa2 ba2 b h w f))

/-- The exponential of a logit less its row's maximum. -/
def expo (b : Fin 16) (h w : Fin 64) (f : Fin 256) : EReal :=
  Ideal.exp (logit x g1 be1 mu1 var1 wa1 ba1 g2 be2 mu2 var2 wa2 ba2 b h w f
    - rowMax x g1 be1 mu1 var1 wa1 ba1 g2 be2 mu2 var2 wa2 ba2 b h w)

/-- The softmax weight: an exponential over the sum of its row's exponentials. -/
def attn (b : Fin 16) (h w : Fin 64) (f : Fin 256) : EReal :=
  Ideal.div (expo x g1 be1 mu1 var1 wa1 ba1 g2 be2 mu2 var2 wa2 ba2 b h w f)
    (∑ f' : Fin 256, expo x g1 be1 mu1 var1 wa1 ba1 g2 be2 mu2 var2 wa2 ba2 b h w f')

/-- The result at a pixel and channel: the softmax weight times the window sum. -/
def out (b : Fin 16) (h w : Fin 64) (f : Fin 256) : EReal :=
  attn x g1 be1 mu1 var1 wa1 ba1 g2 be2 mu2 var2 wa2 ba2 b h w f * taps x w3 b3 b h w f

/-- The result array. -/
def result : Img := fun i =>
  out x w3 b3 g1 be1 mu1 var1 wa1 ba1 g2 be2 mu2 var2 wa2 ba2 (i 0) (i 1) (i 2) (i 3)

end Stages

end Cert.Spec

end
-- ==== Proof.RefValuePath.lean ====
/-
  The reference program's value path read against the specification, one stage at a time: the channel mix, the padded
  image and the nine-entry window sum. Each lemma reads the generated stage at an index given by its coordinates and
  states that it is the specification's stage at those coordinates.
-/
import proofs.«146532_j41154376631134_1_alg».proof.Proof.Spec
import proofs.«146532_j41154376631134_1_alg».proof.Proof.Gen.ReferenceIdeal.Read
import Idealize.ShloMosaic.Lib.ValueIdx
import Idealize.ShloMosaic.Lib.KernelVsHost
import Idealize.ShloMosaic.PureOps.Ideal.Laws

noncomputable section

namespace Cert.RefStages

open Idealize.ShloMosaic Idealize.ShloMosaic.ValueIdx
open Cert.ReferenceIdeal Cert.ReferenceIdeal.Gen Cert.ReferenceIdeal.Read
open Cert.Spec

section ValuePath

variable (x : Img) (w3 : Mat 256 256) (b3 : Row 256)

/-! ## The channel mix -/

/-- The left operand of the first contraction is read along the pixel's channels. -/
theorem lidx_v0 (b : Fin 16) (h w : Fin 64) (f k : Fin 256) :
    lidx_main_v0 (ix4 b h w f) k = ix4 b h w k :=
  funext fun a => Fin.ext (by
    match a with
    | ⟨0, _⟩ => rfl
    | ⟨1, _⟩ => rfl
    | ⟨2, _⟩ => rfl
    | ⟨3, _⟩ => rfl)

/-- The right operand of the first contraction is read down the output channel's column. -/
theorem ridx_v0 (b : Fin 16) (h w : Fin 64) (f k : Fin 256) :
    ridx_main_v0 (ix4 b h w f) k = ix2 k f :=
  funext fun a => Fin.ext (by
    match a with
    | ⟨0, _⟩ => rfl
    | ⟨1, _⟩ => rfl)

/-- The bias is read at the output channel. -/
theorem idx_v1_v2 (b : Fin 16) (h w : Fin 64) (f : Fin 256) :
    idx_main_v1 (idx_main_v2 (ix4 b h w f)) = ix1 f :=
  funext fun a => Fin.ext (by
    match a with
    | ⟨0, _⟩ => rfl)

/-- Stage 3 is the specification's channel mix. -/
theorem v3_eq (b : Fin 16) (h w : Fin 64) (f : Fin 256) :
    val_main_v3 (F := Ideal) x w3 b3 (ix4 b h w f) = conv x w3 b3 b h w f := by
  rw [val_main_v3_apply, val_main_v0_apply, val_main_v2_apply, val_main_v1_apply]
  simp only [lidx_v0, ridx_v0, idx_v1_v2]
  rfl

/-! ## The padded image -/

/-- Stage 4, the padded image, at natural coordinates below 66, is the specification's padded image: the channel mix
    one pixel up and left where both coordinates lie in 1 … 64, the padding value on the border. -/
theorem v4_eq (b : Fin 16) (i j : Nat) (hi : i < 66) (hj : j < 66) (f : Fin 256) :
    val_main_v4 (F := Ideal) x w3 b3 (ix4 b ⟨i, hi⟩ ⟨j, hj⟩ f) = padded x w3 b3 b i j f := by
  unfold Cert.Spec.padded val_main_v4
  split
  · rename_i hij
    refine (pad_apply_of_inside _ _ _ _ _ _ _ _
      (ix4 b (⟨i - 1, by omega⟩ : Fin 64) (⟨j - 1, by omega⟩ : Fin 64) f) ?_).trans ?_
    · intro a
      match a with
      | ⟨0, _⟩ => show b.val = 0 + b.val * (0 + 1); omega
      | ⟨1, _⟩ => show i = 1 + (i - 1) * (0 + 1); omega
      | ⟨2, _⟩ => show j = 1 + (j - 1) * (0 + 1); omega
      | ⟨3, _⟩ => show f.val = 0 + f.val * (0 + 1); omega
    · exact v3_eq x w3 b3 b _ _ f
  · rename_i hij
    by_cases hi' : 1 ≤ i ∧ i ≤ 64
    · have hj' : ¬(1 ≤ j ∧ j ≤ 64) := fun h => hij ⟨hi', h⟩
      refine (pad_apply_of_not_inside _ _ _ _ _ _ _ _ (2 : Fin 4) ?_).trans rfl
      intro hin
      have h1 : 1 ≤ j := hin.1
      have h2 : (j - 1) / (0 + 1) < 64 := hin.2.2
      rw [Nat.div_one] at h2
      exact hj' ⟨h1, by omega⟩
    · refine (pad_apply_of_not_inside _ _ _ _ _ _ _ _ (1 : Fin 4) ?_).trans rfl
      intro hin
      have h1 : 1 ≤ i := hin.1
      have h2 : (i - 1) / (0 + 1) < 64 := hin.2.2
      rw [Nat.div_one] at h2
      exact hi' ⟨h1, by omega⟩

/-! ## The window sum -/

/-- The slice at row offset 0, column offset 0 reads the padded image at (h + 0, w + 0). -/
theorem idx_v6 (b : Fin 16) (h w : Fin 64) (f : Fin 256) :
    idx_main_v6 (ix4 b h w f)
      = ix4 b (⟨h.val, by have := h.isLt; omega⟩ : Fin 66) (⟨w.val, by have := w.isLt; omega⟩ : Fin 66) f :=
  funext fun a => Fin.ext (by
    match a with
    | ⟨0, _⟩ => rfl
    | ⟨1, _⟩ => exact rfl
    | ⟨2, _⟩ => exact rfl
    | ⟨3, _⟩ => rfl)

/-- The slice at row offset 0, column offset 1 reads the padded image at (h + 0, w + 1). -/
theorem idx_v8 (b : Fin 16) (h w : Fin 64) (f : Fin 256) :
    idx_main_v8 (ix4 b h w f)
      = ix4 b (⟨h.val, by have := h.isLt; omega⟩ : Fin 66) (⟨w.val + 1, by have := w.isLt; omega⟩ : Fin 66) f :=
  funext fun a => Fin.ext (by
    match a with
    | ⟨0, _⟩ => rfl
    | ⟨1, _⟩ => exact rfl
    | ⟨2, _⟩ => exact Nat.add_comm _ _
    | ⟨3, _⟩ => rfl)

/-- The slice at row offset 0, column offset 2 reads the padded image at (h + 0, w + 2). -/
theorem idx_v10 (b : Fin 16) (h w : Fin 64) (f : Fin 256) :
    idx_main_v10 (ix4 b h w f)
      = ix4 b (⟨h.val, by have := h.isLt; omega⟩ : Fin 66) (⟨w.val + 2, by have := w.isLt; omega⟩ : Fin 66) f :=
  funext fun a => Fin.ext (by
    match a with
    | ⟨0, _⟩ => rfl
    | ⟨1, _⟩ => exact rfl
    | ⟨2, _⟩ => exact Nat.add_comm _ _
    | ⟨3, _⟩ => rfl)

/-- The slice at row offset 1, column offset 0 reads the padded image at (h + 1, w + 0). -/
theorem idx_v12 (b : Fin 16) (h w : Fin 64) (f : Fin 256) :
    idx_main_v12 (ix4 b h w f)
      = ix4 b (⟨h.val + 1, by have := h.isLt; omega⟩ : Fin 66) (⟨w.val, by have := w.isLt; omega⟩ : Fin 66) f :=
  funext fun a => Fin.ext (by
    match a with
    | ⟨0, _⟩ => rfl
    | ⟨1, _⟩ => exact Nat.add_comm _ _
    | ⟨2, _⟩ => exact rfl
    | ⟨3, _⟩ => rfl)

/-- The slice at row offset 1, column offset 1 reads the padded image at (h + 1, w + 1). -/
theorem idx_v14 (b : Fin 16) (h w : Fin 64) (f : Fin 256) :
    idx_main_v14 (ix4 b h w f)
      = ix4 b (⟨h.val + 1, by have := h.isLt; omega⟩ : Fin 66) (⟨w.val + 1, by have := w.isLt; omega⟩ : Fin 66) f :=
  funext fun a => Fin.ext (by
    match a with
    | ⟨0, _⟩ => rfl
    | ⟨1, _⟩ => exact Nat.add_comm _ _
    | ⟨2, _⟩ => exact Nat.add_comm _ _
    | ⟨3, _⟩ => rfl)

/-- The slice at row offset 1, column offset 2 reads the padded image at (h + 1, w + 2). -/
theorem idx_v16 (b : Fin 16) (h w : Fin 64) (f : Fin 256) :
    idx_main_v16 (ix4 b h w f)
      = ix4 b (⟨h.val + 1, by have := h.isLt; omega⟩ : Fin 66) (⟨w.val + 2, by have := w.isLt; omega⟩ : Fin 66) f :=
  funext fun a => Fin.ext (by
    match a with
    | ⟨0, _⟩ => rfl
    | ⟨1, _⟩ => exact Nat.add_comm _ _
    | ⟨2, _⟩ => exact Nat.add_comm _ _
    | ⟨3, _⟩ => rfl)

/-- The slice at row offset 2, column offset 0 reads the padded image at (h + 2, w + 0). -/
theorem idx_v18 (b : Fin 16) (h w : Fin 64) (f : Fin 256) :
    idx_main_v18 (ix4 b h w f)
      = ix4 b (⟨h.val + 2, by have := h.isLt; omega⟩ : Fin 66) (⟨w.val, by have := w.isLt; omega⟩ : Fin 66) f :=
  funext fun a => Fin.ext (by
    match a with
    | ⟨0, _⟩ => rfl
    | ⟨1, _⟩ => exact Nat.add_comm _ _
    | ⟨2, _⟩ => exact rfl
    | ⟨3, _⟩ => rfl)

/-- The slice at row offset 2, column offset 1 reads the padded image at (h + 2, w + 1). -/
theorem idx_v20 (b : Fin 16) (h w : Fin 64) (f : Fin 256) :
    idx_main_v20 (ix4 b h w f)
      = ix4 b (⟨h.val + 2, by have := h.isLt; omega⟩ : Fin 66) (⟨w.val + 1, by have := w.isLt; omega⟩ : Fin 66) f :=
  funext fun a => Fin.ext (by
    match a with
    | ⟨0, _⟩ => rfl
    | ⟨1, _⟩ => exact Nat.add_comm _ _
    | ⟨2, _⟩ => exact Nat.add_comm _ _
    | ⟨3, _⟩ => rfl)

/-- The slice at row offset 2, column offset 2 reads the padded image at (h + 2, w + 2). -/
theorem idx_v22 (b : Fin 16) (h w : Fin 64) (f : Fin 256) :
    idx_main_v22 (ix4 b h w f)
      = ix4 b (⟨h.val + 2, by have := h.isLt; omega⟩ : Fin 66) (⟨w.val + 2, by have := w.isLt; omega⟩ : Fin 66) f :=
  funext fun a => Fin.ext (by
    match a with
    | ⟨0, _⟩ => rfl
    | ⟨1, _⟩ => exact Nat.add_comm _ _
    | ⟨2, _⟩ => exact Nat.add_comm _ _
    | ⟨3, _⟩ => rfl)

/-- Stage 23 is the specification's window sum: the nine slices of the padded image added, in the program's order, to
    the broadcast zero word. -/
theorem v23_eq (b : Fin 16) (h w : Fin 64) (f : Fin 256) :
    val_main_v23 (F := Ideal) x w3 b3 (ix4 b h w f) = taps x w3 b3 b h w f := by
  rw [val_main_v23_apply, val_main_v21_apply, val_main_v19_apply, val_main_v17_apply, val_main_v15_apply,
    val_main_v13_apply, val_main_v11_apply, val_main_v9_apply, val_main_v7_apply, val_main_v5_apply,
    val_main_cst_apply, val_main_v6_apply, val_main_v8_apply, val_main_v10_apply, val_main_v12_apply,
    val_main_v14_apply, val_main_v16_apply, val_main_v18_apply, val_main_v20_apply, val_main_v22_apply]
  simp only [idx_v6, idx_v8, idx_v10, idx_v12, idx_v14, idx_v16, idx_v18, idx_v20, idx_v22, v4_eq]
  rfl

end ValuePath

end Cert.RefStages

end
-- ==== Proof.RefAttention.lean ====
/-
  The reference program's attention path read against the specification, one stage at a time: the two normalisations,
  the two channel mixes with their clamps at zero, the row maximum, the exponentials, their sum and the quotient; then
  the product with the window sum, which is the result. Each lemma reads the generated stage at an index given by its
  coordinates and states that it is the specification's stage at those coordinates.
-/
import proofs.«146532_j41154376631134_1_alg».proof.Proof.RefValuePath
import Idealize.ShloMosaic.PureOps.Reduce

noncomputable section

namespace Cert.RefStages

open Idealize.ShloMosaic Idealize.ShloMosaic.ValueIdx
open Cert.ReferenceIdeal Cert.ReferenceIdeal.Gen Cert.ReferenceIdeal.Read
open Cert.Spec

/-! ## Where the broadcast per-channel parameters are read

A vector of per-channel parameters is broadcast to [1, 1, 1, C] and then to the whole array; at (b, h, w, c) the two
broadcasts read the vector at c. -/

theorem idx_v24_v25 (b : Fin 16) (h w : Fin 64) (f : Fin 256) :
    idx_main_v24 (idx_main_v25 (ix4 b h w f)) = ix1 f :=
  funext fun d => Fin.ext (by
    match d with
    | ⟨0, _⟩ => rfl)

theorem idx_v30_v31 (b : Fin 16) (h w : Fin 64) (f : Fin 256) :
    idx_main_v30 (idx_main_v31 (ix4 b h w f)) = ix1 f :=
  funext fun d => Fin.ext (by
    match d with
    | ⟨0, _⟩ => rfl)

theorem idx_v33_v34 (b : Fin 16) (h w : Fin 64) (f : Fin 256) :
    idx_main_v33 (idx_main_v34 (ix4 b h w f)) = ix1 f :=
  funext fun d => Fin.ext (by
    match d with
    | ⟨0, _⟩ => rfl)

theorem idx_v36_v37 (b : Fin 16) (h w : Fin 64) (f : Fin 256) :
    idx_main_v36 (idx_main_v37 (ix4 b h w f)) = ix1 f :=
  funext fun d => Fin.ext (by
    match d with
    | ⟨0, _⟩ => rfl)

theorem idx_v60_v61 (b : Fin 16) (h w : Fin 64) (f : Fin 256) :
    idx_main_v60 (idx_main_v61 (ix4 b h w f)) = ix1 f :=
  funext fun d => Fin.ext (by
    match d with
    | ⟨0, _⟩ => rfl)

theorem idx_v40_v41 (b : Fin 16) (h w : Fin 64) (a : Fin 32) :
    idx_main_v40 (idx_main_v41 (ix4 b h w a)) = ix1 a :=
  funext fun d => Fin.ext (by
    match d with
    | ⟨0, _⟩ => rfl)

theorem idx_v44_v45 (b : Fin 16) (h w : Fin 64) (a : Fin 32) :
    idx_main_v44 (idx_main_v45 (ix4 b h w a)) = ix1 a :=
  funext fun d => Fin.ext (by
    match d with
    | ⟨0, _⟩ => rfl)

theorem idx_v50_v51 (b : Fin 16) (h w : Fin 64) (a : Fin 32) :
    idx_main_v50 (idx_main_v51 (ix4 b h w a)) = ix1 a :=
  funext fun d => Fin.ext (by
    match d with
    | ⟨0, _⟩ => rfl)

theorem idx_v53_v54 (b : Fin 16) (h w : Fin 64) (a : Fin 32) :
    idx_main_v53 (idx_main_v54 (ix4 b h w a)) = ix1 a :=
  funext fun d => Fin.ext (by
    match d with
    | ⟨0, _⟩ => rfl)

theorem idx_v56_v57 (b : Fin 16) (h w : Fin 64) (a : Fin 32) :
    idx_main_v56 (idx_main_v57 (ix4 b h w a)) = ix1 a :=
  funext fun d => Fin.ext (by
    match d with
    | ⟨0, _⟩ => rfl)

section Attention

variable (x : Img) (w3 : Mat 256 256) (b3 : Row 256)
variable (g1 be1 mu1 var1 : Row 256) (wa1 : Mat 256 32) (ba1 : Row 32)
variable (g2 be2 mu2 var2 : Row 32) (wa2 : Mat 32 256) (ba2 : Row 256)

/-! ## The first normalisation -/

/-- Stage 38 is the specification's first normalisation. -/
theorem v38_eq (b : Fin 16) (h w : Fin 64) (f : Fin 256) :
    val_main_v38 (F := Ideal) x g1 be1 mu1 var1 (ix4 b h w f) = norm1 x g1 be1 mu1 var1 b h w f := by
  rw [val_main_v38_apply, val_main_v35_apply, val_main_v32_apply, val_main_v26_apply, val_main_v25_apply,
    val_main_v24_apply, val_main_v31_apply, val_main_v30_apply, val_main_v29_apply, val_main_v28_apply,
    val_main_v27_apply, val_main_cst_0_apply, val_main_v34_apply, val_main_v33_apply, val_main_v37_apply,
    val_main_v36_apply]
  simp only [idx_v24_v25, idx_v30_v31, idx_v33_v34, idx_v36_v37]
  rfl

/-! ## The first attention layer -/

theorem lidx_v39 (b : Fin 16) (h w : Fin 64) (a : Fin 32) (k : Fin 256) :
    lidx_main_v39 (ix4 b h w a) k = ix4 b h w k :=
  funext fun d => Fin.ext (by
    match d with
    | ⟨0, _⟩ => rfl
    | ⟨1, _⟩ => rfl
    | ⟨2, _⟩ => rfl
    | ⟨3, _⟩ => rfl)

theorem ridx_v39 (b : Fin 16) (h w : Fin 64) (a : Fin 32) (k : Fin 256) :
    ridx_main_v39 (ix4 b h w a) k = ix2 k a :=
  funext fun d => Fin.ext (by
    match d with
    | ⟨0, _⟩ => rfl
    | ⟨1, _⟩ => rfl)

/-- Stage 43 is the specification's first attention layer: the contraction over the 256 normalised channels, the bias,
    and the maximum with the broadcast zero word. -/
theorem v43_eq (b : Fin 16) (h w : Fin 64) (a : Fin 32) :
    val_main_v43 (F := Ideal) x g1 be1 mu1 var1 wa1 ba1 (ix4 b h w a)
      = hidden x g1 be1 mu1 var1 wa1 ba1 b h w a := by
  rw [val_main_v43_apply, val_main_v42_apply, val_main_v39_apply, val_main_v41_apply, val_main_v40_apply,
    val_main_call1_v0_apply, val_main_call1_cst_apply]
  simp only [lidx_v39, ridx_v39, idx_v40_v41, v38_eq]
  rfl

/-! ## The second normalisation -/

/-- Stage 58 is the specification's second normalisation. -/
theorem v58_eq (b : Fin 16) (h w : Fin 64) (a : Fin 32) :
    val_main_v58 (F := Ideal) x g1 be1 mu1 var1 wa1 ba1 g2 be2 mu2 var2 (ix4 b h w a)
      = norm2 x g1 be1 mu1 var1 wa1 ba1 g2 be2 mu2 var2 b h w a := by
  rw [val_main_v58_apply, val_main_v55_apply, val_main_v52_apply, val_main_v46_apply, val_main_v45_apply,
    val_main_v44_apply, val_main_v51_apply, val_main_v50_apply, val_main_v49_apply, val_main_v48_apply,
    val_main_v47_apply, val_main_cst_1_apply, val_main_v54_apply, val_main_v53_apply, val_main_v57_apply,
    val_main_v56_apply]
  simp only [idx_v44_v45, idx_v50_v51, idx_v53_v54, idx_v56_v57, v43_eq]
  rfl

/-! ## The second attention layer -/

theorem lidx_v59 (b : Fin 16) (h w : Fin 64) (f : Fin 256) (k : Fin 32) :
    lidx_main_v59 (ix4 b h w f) k = ix4 b h w k :=
  funext fun d => Fin.ext (by
    match d with
    | ⟨0, _⟩ => rfl
    | ⟨1, _⟩ => rfl
    | ⟨2, _⟩ => rfl
    | ⟨3, _⟩ => rfl)

theorem ridx_v59 (b : Fin 16) (h w : Fin 64) (f : Fin 256) (k : Fin 32) :
    ridx_main_v59 (ix4 b h w f) k = ix2 k f :=
  funext fun d => Fin.ext (by
    match d with
    | ⟨0, _⟩ => rfl
    | ⟨1, _⟩ => rfl)

/-- Stage 63 is the specification's second attention layer, the logits. -/
theorem v63_eq (b : Fin 16) (h w : Fin 64) (f : Fin 256) :
    val_main_v63 (F := Ideal) x g1 be1 mu1 var1 wa1 ba1 g2 be2 mu2 var2 wa2 ba2 (ix4 b h w f)
      = logit x g1 be1 mu1 var1 wa1 ba1 g2 be2 mu2 var2 wa2 ba2 b h w f := by
  rw [val_main_v63_apply, val_main_v62_apply, val_main_v59_apply, val_main_v61_apply, val_main_v60_apply,
    val_main_call2_v0_apply, val_main_call2_cst_apply]
  simp only [lidx_v59, ridx_v59, idx_v60_v61, v58_eq]
  rfl

/-! ## The row maximum -/

/-- The last axis of the [16, 64, 64, 256] array reduces to [16, 64, 64]. -/
theorem reduces_d3 : S16x64x64x256.Reduces [3] S16x64x64 := by decide

/-- Inserting a channel into a pixel's coordinates gives the pixel's entry for that channel. -/
theorem lift_d3 (b : Fin 16) (h w : Fin 64) (f : Fin 256) :
    reduces_d3.lift (ix3 b h w) f = ix4 b h w f :=
  funext fun d => Fin.ext (by
    match d with
    | ⟨0, _⟩ => rfl
    | ⟨1, _⟩ => rfl
    | ⟨2, _⟩ => rfl
    | ⟨3, _⟩ => rfl)

/-- Stage 64, the reduction by maximum over the channels from the word of −∞, is the fold of the maximum over the
    pixel's 256 logits. -/
theorem v64_eq (b : Fin 16) (h w : Fin 64) :
    val_main_v64 (F := Ideal) x g1 be1 mu1 var1 wa1 ba1 g2 be2 mu2 var2 wa2 ba2 (ix3 b h w)
      = (Finset.univ : Finset (Fin 256)).fold max negInfW
          (fun f => logit x g1 be1 mu1 var1 wa1 ba1 g2 be2 mu2 var2 wa2 ba2 b h w f) := by
  unfold val_main_v64
  refine (Host.reduce_eq_fold_single (FloatOps.maximumf (F := Ideal) (φ := .f32)) _ _ _ reduces_d3 _
    (ix3 b h w)).trans ?_
  have e : (val_main_v63 (F := Ideal) x g1 be1 mu1 var1 wa1 ba1 g2 be2 mu2 var2 wa2 ba2) ∘ reduces_d3.lift (ix3 b h w)
      = fun f : Fin 256 => logit x g1 be1 mu1 var1 wa1 ba1 g2 be2 mu2 var2 wa2 ba2 b h w f :=
    funext fun f : Fin 256 =>
      (congrArg (val_main_v63 (F := Ideal) x g1 be1 mu1 var1 wa1 ba1 g2 be2 mu2 var2 wa2 ba2) (lift_d3 b h w f)).trans
        (v63_eq x g1 be1 mu1 var1 wa1 ba1 g2 be2 mu2 var2 wa2 ba2 b h w f)
  exact congrArg (fun g : Fin 256 → EReal => (Finset.univ : Finset (Fin 256)).fold max negInfW g) e

/-- Stage 66 is the specification's row maximum: the maximum of the broadcast word of −∞ and the reduction. -/
theorem v66_eq (b : Fin 16) (h w : Fin 64) :
    val_main_v66 (F := Ideal) x g1 be1 mu1 var1 wa1 ba1 g2 be2 mu2 var2 wa2 ba2 (ix3 b h w)
      = rowMax x g1 be1 mu1 var1 wa1 ba1 g2 be2 mu2 var2 wa2 ba2 b h w := by
  rw [val_main_v66_apply, val_main_v65_apply, val_main_cst_3_apply, v64_eq]
  rfl

/-! ## The exponentials, their sum and the quotient -/

/-- The two broadcasts of a per-pixel value read it at the pixel. -/
theorem idx_v67_v68 (b : Fin 16) (h w : Fin 64) (f : Fin 256) :
    idx_main_v67 (idx_main_v68 (ix4 b h w f)) = ix3 b h w :=
  funext fun d => Fin.ext (by
    match d with
    | ⟨0, _⟩ => rfl
    | ⟨1, _⟩ => rfl
    | ⟨2, _⟩ => rfl)

theorem idx_v72_v73 (b : Fin 16) (h w : Fin 64) (f : Fin 256) :
    idx_main_v72 (idx_main_v73 (ix4 b h w f)) = ix3 b h w :=
  funext fun d => Fin.ext (by
    match d with
    | ⟨0, _⟩ => rfl
    | ⟨1, _⟩ => rfl
    | ⟨2, _⟩ => rfl)

/-- The sum over the channels reads the pixel's entry for each channel. -/
theorem idx_v71 (b : Fin 16) (h w : Fin 64) (k : Fin 256) :
    idx_main_v71 (ix3 b h w) k = ix4 b h w k :=
  funext fun d => Fin.ext (by
    match d with
    | ⟨0, _⟩ => rfl
    | ⟨1, _⟩ => rfl
    | ⟨2, _⟩ => rfl
    | ⟨3, _⟩ => rfl)

/-- Stage 70 is the specification's exponential of the logit less the row maximum. -/
theorem v70_eq (b : Fin 16) (h w : Fin 64) (f : Fin 256) :
    val_main_v70 (F := Ideal) x g1 be1 mu1 var1 wa1 ba1 g2 be2 mu2 var2 wa2 ba2 (ix4 b h w f)
      = expo x g1 be1 mu1 var1 wa1 ba1 g2 be2 mu2 var2 wa2 ba2 b h w f := by
  rw [val_main_v70_apply, val_main_v69_apply, val_main_v68_apply, val_main_v67_apply]
  simp only [idx_v67_v68, v63_eq, v66_eq]
  rfl

/-- Stage 71 is the sum of the pixel's exponentials: the zero word it starts from adds nothing. -/
theorem v71_eq (b : Fin 16) (h w : Fin 64) :
    val_main_v71 (F := Ideal) x g1 be1 mu1 var1 wa1 ba1 g2 be2 mu2 var2 wa2 ba2 (ix3 b h w)
      = ∑ f' : Fin 256, expo x g1 be1 mu1 var1 wa1 ba1 g2 be2 mu2 var2 wa2 ba2 b h w f' := by
  rw [val_main_v71_apply, val_main_cst_4_apply]
  simp only [idx_v71, v70_eq]
  rw [Ideal.ofBits_def, Ideal.ofBits_zero_f32, zero_add]

/-- Stage 74 is the specification's softmax weight. -/
theorem v74_eq (b : Fin 16) (h w : Fin 64) (f : Fin 256) :
    val_main_v74 (F := Ideal) x g1 be1 mu1 var1 wa1 ba1 g2 be2 mu2 var2 wa2 ba2 (ix4 b h w f)
      = attn x g1 be1 mu1 var1 wa1 ba1 g2 be2 mu2 var2 wa2 ba2 b h w f := by
  rw [val_main_v74_apply, val_main_v73_apply, val_main_v72_apply]
  simp only [idx_v72_v73, v70_eq, v71_eq]
  rfl

/-! ## The result -/

/-- Stage 75 is the specification's result at a pixel and channel. -/
theorem v75_eq (b : Fin 16) (h w : Fin 64) (f : Fin 256) :
    val_main_v75 (F := Ideal) x w3 b3 g1 be1 mu1 var1 wa1 ba1 g2 be2 mu2 var2 wa2 ba2 (ix4 b h w f)
      = out x w3 b3 g1 be1 mu1 var1 wa1 ba1 g2 be2 mu2 var2 wa2 ba2 b h w f := by
  rw [val_main_v75_apply, v74_eq, v23_eq]
  rfl

end Attention

/-- The reference program's result is the specification's result array. -/
theorem ref_eq_result (x0 : Cert.Spec.Img) (x1 : Cert.Spec.Mat 256 256) (x2 x3 x4 x5 x6 : Cert.Spec.Row 256)
    (x7 : Cert.Spec.Mat 256 32) (x8 x9 x10 x11 x12 : Cert.Spec.Row 32) (x13 : Cert.Spec.Mat 32 256)
    (x14 : Cert.Spec.Row 256) :
    Cert.ReferenceIdeal.Read.val_main_v75 (F := Ideal) x0 x1 x2 x3 x4 x5 x6 x7 x8 x9 x10 x11 x12 x13 x14
      = Cert.Spec.result x0 x1 x2 x3 x4 x5 x6 x7 x8 x9 x10 x11 x12 x13 x14 :=
  funext fun i =>
    (congrArg (val_main_v75 (F := Ideal) x0 x1 x2 x3 x4 x5 x6 x7 x8 x9 x10 x11 x12 x13 x14) (eq_ix4 i)).trans
      (v75_eq x0 x1 x2 x3 x4 x5 x6 x7 x8 x9 x10 x11 x12 x13 x14 (i 0) (i 1) (i 2) (i 3))

end Cert.RefStages

end
-- ==== Proof.KernelBlocks.lean ====
/-
  The blocks the grid's sixteen points work on, as reads of the argument arrays, and the cover of the result.

  The grid has one point per image of the batch. At point `t` the image window's block is image `t` of the batch (block
  index `(t, 0, 0, 0)`, block size one image), every parameter window's block is its whole array (block index all
  zeros, block size the array's), and the result window's block is image `t` of the result. A block's coordinate in
  its array is, on every axis, the block index times the block size plus the coordinate inside the block; the block
  indices are decided over the sixteen points. Every index of the result lies in the block of the point its first
  coordinate names.
-/
import proofs.«146532_j41154376631134_1_alg».proof.Proof.Gen.KernelIdeal.Value
import Idealize.ShloMosaic.Lib.ValueIdx

noncomputable section

namespace Cert.KernelBlocks

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-- The grid has sixteen points. -/
theorem N16 : cfg0.N = 16 := N_0

/-- The image of the batch that point `t` works on. -/
def batch (t : Fin cfg0.N) : Fin 16 := ⟨t.val, lt_of_lt_of_eq t.isLt N16⟩

theorem batch_val (t : Fin cfg0.N) : (batch t).val = t.val := rfl

/-! ## The block indices, decided over the grid -/

/-- The image window's block index at point `t` is `(t, 0, 0, 0)`. -/
theorem idx_0 : ∀ t : Fin cfg0.N, win0_0.index t (0 : Fin 4) = t.val ∧ win0_0.index t (1 : Fin 4) = 0 ∧ win0_0.index t (2 : Fin 4) = 0 ∧ win0_0.index t (3 : Fin 4) = 0 :=
  (by decide +kernel : ∀ t : Fin grid0.N, _)

/-- The result window's block index at point `t` is `(t, 0, 0, 0)`. -/
theorem idx_15 : ∀ t : Fin cfg0.N, win0_15.index t (0 : Fin 4) = t.val ∧ win0_15.index t (1 : Fin 4) = 0 ∧ win0_15.index t (2 : Fin 4) = 0 ∧ win0_15.index t (3 : Fin 4) = 0 :=
  (by decide +kernel : ∀ t : Fin grid0.N, _)

/-- Parameter window 1's block index at point `t` is all zeros. -/
theorem idx_1 : ∀ t : Fin cfg0.N, win0_1.index t (0 : Fin 2) = 0 ∧ win0_1.index t (1 : Fin 2) = 0 :=
  (by decide +kernel : ∀ t : Fin grid0.N, _)

/-- Parameter window 2's block index at point `t` is all zeros. -/
theorem idx_2 : ∀ t : Fin cfg0.N, win0_2.index t (0 : Fin 1) = 0 :=
  (by decide +kernel : ∀ t : Fin grid0.N, _)

/-- Parameter window 3's block index at point `t` is all zeros. -/
theorem idx_3 : ∀ t : Fin cfg0.N, win0_3.index t (0 : Fin 1) = 0 :=
  (by decide +kernel : ∀ t : Fin grid0.N, _)

/-- Parameter window 4's block index at point `t` is all zeros. -/
theorem idx_4 : ∀ t : Fin cfg0.N, win0_4.index t (0 : Fin 1) = 0 :=
  (by decide +kernel : ∀ t : Fin grid0.N, _)

/-- Parameter window 5's block index at point `t` is all zeros. -/
theorem idx_5 : ∀ t : Fin cfg0.N, win0_5.index t (0 : Fin 1) = 0 :=
  (by decide +kernel : ∀ t : Fin grid0.N, _)

/-- Parameter window 6's block index at point `t` is all zeros. -/
theorem idx_6 : ∀ t : Fin cfg0.N, win0_6.index t (0 : Fin 1) = 0 :=
  (by decide +kernel : ∀ t : Fin grid0.N, _)

/-- Parameter window 7's block index at point `t` is all zeros. -/
theorem idx_7 : ∀ t : Fin cfg0.N, win0_7.index t (0 : Fin 2) = 0 ∧ win0_7.index t (1 : Fin 2) = 0 :=
  (by decide +kernel : ∀ t : Fin grid0.N, _)

/-- Parameter window 8's block index at point `t` is all zeros. -/
theorem idx_8 : ∀ t : Fin cfg0.N, win0_8.index t (0 : Fin 1) = 0 :=
  (by decide +kernel : ∀ t : Fin grid0.N, _)

/-- Parameter window 9's block index at point `t` is all zeros. -/
theorem idx_9 : ∀ t : Fin cfg0.N, win0_9.index t (0 : Fin 1) = 0 :=
  (by decide +kernel : ∀ t : Fin grid0.N, _)

/-- Parameter window 10's block index at point `t` is all zeros. -/
theorem idx_10 : ∀ t : Fin cfg0.N, win0_10.index t (0 : Fin 1) = 0 :=
  (by decide +kernel : ∀ t : Fin grid0.N, _)

/-- Parameter window 11's block index at point `t` is all zeros. -/
theorem idx_11 : ∀ t : Fin cfg0.N, win0_11.index t (0 : Fin 1) = 0 :=
  (by decide +kernel : ∀ t : Fin grid0.N, _)

/-- Parameter window 12's block index at point `t` is all zeros. -/
theorem idx_12 : ∀ t : Fin cfg0.N, win0_12.index t (0 : Fin 1) = 0 :=
  (by decide +kernel : ∀ t : Fin grid0.N, _)

/-- Parameter window 13's block index at point `t` is all zeros. -/
theorem idx_13 : ∀ t : Fin cfg0.N, win0_13.index t (0 : Fin 2) = 0 ∧ win0_13.index t (1 : Fin 2) = 0 :=
  (by decide +kernel : ∀ t : Fin grid0.N, _)

/-- Parameter window 14's block index at point `t` is all zeros. -/
theorem idx_14 : ∀ t : Fin cfg0.N, win0_14.index t (0 : Fin 1) = 0 :=
  (by decide +kernel : ∀ t : Fin grid0.N, _)

/-- All of them at once: windows 0 and 15, then windows 1 … 14. -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_15.index t (0 : Fin 4) = t.val ∧ win0_15.index t (1 : Fin 4) = 0 ∧ win0_15.index t (2 : Fin 4) = 0 ∧ win0_15.index t (3 : Fin 4) = 0)
    ∧ (win0_1.index t (0 : Fin 2) = 0 ∧ win0_1.index t (1 : Fin 2) = 0)
    ∧ (win0_2.index t (0 : Fin 1) = 0)
    ∧ (win0_3.index t (0 : Fin 1) = 0)
    ∧ (win0_4.index t (0 : Fin 1) = 0)
    ∧ (win0_5.index t (0 : Fin 1) = 0)
    ∧ (win0_6.index t (0 : Fin 1) = 0)
    ∧ (win0_7.index t (0 : Fin 2) = 0 ∧ win0_7.index t (1 : Fin 2) = 0)
    ∧ (win0_8.index t (0 : Fin 1) = 0)
    ∧ (win0_9.index t (0 : Fin 1) = 0)
    ∧ (win0_10.index t (0 : Fin 1) = 0)
    ∧ (win0_11.index t (0 : Fin 1) = 0)
    ∧ (win0_12.index t (0 : Fin 1) = 0)
    ∧ (win0_13.index t (0 : Fin 2) = 0 ∧ win0_13.index t (1 : Fin 2) = 0)
    ∧ (win0_14.index t (0 : Fin 1) = 0) :=
  fun t => ⟨idx_0 t, idx_15 t, idx_1 t, idx_2 t, idx_3 t, idx_4 t, idx_5 t, idx_6 t, idx_7 t, idx_8 t, idx_9 t, idx_10 t, idx_11 t,
    idx_12 t, idx_13 t, idx_14 t⟩

/-! ## The image window's block -/

/-- Point `t`'s block of the image batch is image `t`: at `(0, h, w, k)` it reads the batch at `(t, h, w, k)`. -/
theorem image_block (c : Dev nD) (t : Fin cfg0.N) (h w : Fin 64) (k : Fin 256) :
    iblk m c 0 t (ix4 (0 : Fin 1) h w k) = (V m c main_arg0 : S16x64x64x256.Idx → Elt F .f32) (ix4 (batch t) h w k) := by
  obtain ⟨e0, e1, e2, e3⟩ := idx_0 t
  show V m c main_arg0 (((cfg0.win 0).blk t).view.emb (ix4 (0 : Fin 1) h w k)) = _
  refine congrArg _ ?_
  funext a; apply Fin.ext
  match a with
  | ⟨0, _⟩ => show win0_0.index t (0 : Fin 4) * 1 + 1 * 0 = t.val; omega
  | ⟨1, _⟩ => show win0_0.index t (1 : Fin 4) * 64 + 1 * h.val = h.val; omega
  | ⟨2, _⟩ => show win0_0.index t (2 : Fin 4) * 64 + 1 * w.val = w.val; omega
  | ⟨3, _⟩ => show win0_0.index t (3 : Fin 4) * 256 + 1 * k.val = k.val; omega

/-! ## The parameter windows' blocks: each is its whole array -/

/-- Point `t`'s block of parameter 1 is the whole array. -/
theorem whole_1 (c : Dev nD) (t : Fin cfg0.N) : (iblk m c 1 t : S256x256.Idx → Elt F .f32) = V m c main_arg1 := by
  obtain ⟨e0, e1⟩ := idx_1 t
  funext j
  show V m c main_arg1 (((cfg0.win 1).blk t).view.emb j) = V m c main_arg1 j
  refine congrArg _ ?_
  funext a; apply Fin.ext
  match a with
  | ⟨0, _⟩ => show win0_1.index t (0 : Fin 2) * 256 + 1 * (j 0).val = (j 0).val; omega
  | ⟨1, _⟩ => show win0_1.index t (1 : Fin 2) * 256 + 1 * (j 1).val = (j 1).val; omega

/-- Point `t`'s block of parameter 2 is the whole array. -/
theorem whole_2 (c : Dev nD) (t : Fin cfg0.N) : (iblk m c 2 t : S256.Idx → Elt F .f32) = V m c main_arg2 := by
  have e0 := idx_2 t
  funext j
  show V m c main_arg2 (((cfg0.win 2).blk t).view.emb j) = V m c main_arg2 j
  refine congrArg _ ?_
  funext a; apply Fin.ext
  match a with
  | ⟨0, _⟩ => show win0_2.index t (0 : Fin 1) * 256 + 1 * (j 0).val = (j 0).val; omega

/-- Point `t`'s block of parameter 3 is the whole array. -/
theorem whole_3 (c : Dev nD) (t : Fin cfg0.N) : (iblk m c 3 t : S256.Idx → Elt F .f32) = V m c main_arg3 := by
  have e0 := idx_3 t
  funext j
  show V m c main_arg3 (((cfg0.win 3).blk t).view.emb j) = V m c main_arg3 j
  refine congrArg _ ?_
  funext a; apply Fin.ext
  match a with
  | ⟨0, _⟩ => show win0_3.index t (0 : Fin 1) * 256 + 1 * (j 0).val = (j 0).val; omega

/-- Point `t`'s block of parameter 4 is the whole array. -/
theorem whole_4 (c : Dev nD) (t : Fin cfg0.N) : (iblk m c 4 t : S256.Idx → Elt F .f32) = V m c main_arg4 := by
  have e0 := idx_4 t
  funext j
  show V m c main_arg4 (((cfg0.win 4).blk t).view.emb j) = V m c main_arg4 j
  refine congrArg _ ?_
  funext a; apply Fin.ext
  match a with
  | ⟨0, _⟩ => show win0_4.index t (0 : Fin 1) * 256 + 1 * (j 0).val = (j 0).val; omega

/-- Point `t`'s block of parameter 5 is the whole array. -/
theorem whole_5 (c : Dev nD) (t : Fin cfg0.N) : (iblk m c 5 t : S256.Idx → Elt F .f32) = V m c main_arg5 := by
  have e0 := idx_5 t
  funext j
  show V m c main_arg5 (((cfg0.win 5).blk t).view.emb j) = V m c main_arg5 j
  refine congrArg _ ?_
  funext a; apply Fin.ext
  match a with
  | ⟨0, _⟩ => show win0_5.index t (0 : Fin 1) * 256 + 1 * (j 0).val = (j 0).val; omega

/-- Point `t`'s block of parameter 6 is the whole array. -/
theorem whole_6 (c : Dev nD) (t : Fin cfg0.N) : (iblk m c 6 t : S256.Idx → Elt F .f32) = V m c main_arg6 := by
  have e0 := idx_6 t
  funext j
  show V m c main_arg6 (((cfg0.win 6).blk t).view.emb j) = V m c main_arg6 j
  refine congrArg _ ?_
  funext a; apply Fin.ext
  match a with
  | ⟨0, _⟩ => show win0_6.index t (0 : Fin 1) * 256 + 1 * (j 0).val = (j 0).val; omega

/-- Point `t`'s block of parameter 7 is the whole array. -/
theorem whole_7 (c : Dev nD) (t : Fin cfg0.N) : (iblk m c 7 t : S256x32.Idx → Elt F .f32) = V m c main_arg7 := by
  obtain ⟨e0, e1⟩ := idx_7 t
  funext j
  show V m c main_arg7 (((cfg0.win 7).blk t).view.emb j) = V m c main_arg7 j
  refine congrArg _ ?_
  funext a; apply Fin.ext
  match a with
  | ⟨0, _⟩ => show win0_7.index t (0 : Fin 2) * 256 + 1 * (j 0).val = (j 0).val; omega
  | ⟨1, _⟩ => show win0_7.index t (1 : Fin 2) * 32 + 1 * (j 1).val = (j 1).val; omega

/-- Point `t`'s block of parameter 8 is the whole array. -/
theorem whole_8 (c : Dev nD) (t : Fin cfg0.N) : (iblk m c 8 t : S32.Idx → Elt F .f32) = V m c main_arg8 := by
  have e0 := idx_8 t
  funext j
  show V m c main_arg8 (((cfg0.win 8).blk t).view.emb j) = V m c main_arg8 j
  refine congrArg _ ?_
  funext a; apply Fin.ext
  match a with
  | ⟨0, _⟩ => show win0_8.index t (0 : Fin 1) * 32 + 1 * (j 0).val = (j 0).val; omega

/-- Point `t`'s block of parameter 9 is the whole array. -/
theorem whole_9 (c : Dev nD) (t : Fin cfg0.N) : (iblk m c 9 t : S32.Idx → Elt F .f32) = V m c main_arg9 := by
  have e0 := idx_9 t
  funext j
  show V m c main_arg9 (((cfg0.win 9).blk t).view.emb j) = V m c main_arg9 j
  refine congrArg _ ?_
  funext a; apply Fin.ext
  match a with
  | ⟨0, _⟩ => show win0_9.index t (0 : Fin 1) * 32 + 1 * (j 0).val = (j 0).val; omega

/-- Point `t`'s block of parameter 10 is the whole array. -/
theorem whole_10 (c : Dev nD) (t : Fin cfg0.N) : (iblk m c 10 t : S32.Idx → Elt F .f32) = V m c main_arg10 := by
  have e0 := idx_10 t
  funext j
  show V m c main_arg10 (((cfg0.win 10).blk t).view.emb j) = V m c main_arg10 j
  refine congrArg _ ?_
  funext a; apply Fin.ext
  match a with
  | ⟨0, _⟩ => show win0_10.index t (0 : Fin 1) * 32 + 1 * (j 0).val = (j 0).val; omega

/-- Point `t`'s block of parameter 11 is the whole array. -/
theorem whole_11 (c : Dev nD) (t : Fin cfg0.N) : (iblk m c 11 t : S32.Idx → Elt F .f32) = V m c main_arg11 := by
  have e0 := idx_11 t
  funext j
  show V m c main_arg11 (((cfg0.win 11).blk t).view.emb j) = V m c main_arg11 j
  refine congrArg _ ?_
  funext a; apply Fin.ext
  match a with
  | ⟨0, _⟩ => show win0_11.index t (0 : Fin 1) * 32 + 1 * (j 0).val = (j 0).val; omega

/-- Point `t`'s block of parameter 12 is the whole array. -/
theorem whole_12 (c : Dev nD) (t : Fin cfg0.N) : (iblk m c 12 t : S32.Idx → Elt F .f32) = V m c main_arg12 := by
  have e0 := idx_12 t
  funext j
  show V m c main_arg12 (((cfg0.win 12).blk t).view.emb j) = V m c main_arg12 j
  refine congrArg _ ?_
  funext a; apply Fin.ext
  match a with
  | ⟨0, _⟩ => show win0_12.index t (0 : Fin 1) * 32 + 1 * (j 0).val = (j 0).val; omega

/-- Point `t`'s block of parameter 13 is the whole array. -/
theorem whole_13 (c : Dev nD) (t : Fin cfg0.N) : (iblk m c 13 t : S32x256.Idx → Elt F .f32) = V m c main_arg13 := by
  obtain ⟨e0, e1⟩ := idx_13 t
  funext j
  show V m c main_arg13 (((cfg0.win 13).blk t).view.emb j) = V m c main_arg13 j
  refine congrArg _ ?_
  funext a; apply Fin.ext
  match a with
  | ⟨0, _⟩ => show win0_13.index t (0 : Fin 2) * 32 + 1 * (j 0).val = (j 0).val; omega
  | ⟨1, _⟩ => show win0_13.index t (1 : Fin 2) * 256 + 1 * (j 1).val = (j 1).val; omega

/-- Point `t`'s block of parameter 14 is the whole array. -/
theorem whole_14 (c : Dev nD) (t : Fin cfg0.N) : (iblk m c 14 t : S256.Idx → Elt F .f32) = V m c main_arg14 := by
  have e0 := idx_14 t
  funext j
  show V m c main_arg14 (((cfg0.win 14).blk t).view.emb j) = V m c main_arg14 j
  refine congrArg _ ?_
  funext a; apply Fin.ext
  match a with
  | ⟨0, _⟩ => show win0_14.index t (0 : Fin 1) * 256 + 1 * (j 0).val = (j 0).val; omega

/-! ## The result window's blocks -/

/-- An index of point `t`'s block of the result sits in the result at image `t`, same pixel and channel. -/
theorem out_emb (t : Fin cfg0.N) (y : S1x64x64x256.Idx) :
    ((cfg0.win 15).blk t).view.emb y = ix4 (batch t) (y 1) (y 2) (y 3) := by
  obtain ⟨e0, e1, e2, e3⟩ := idx_15 t
  funext a; apply Fin.ext
  match a with
  | ⟨0, _⟩ => show win0_15.index t (0 : Fin 4) * 1 + 1 * (y 0).val = t.val; have hy : (y 0).val < 1 := (y 0).isLt; omega
  | ⟨1, _⟩ => show win0_15.index t (1 : Fin 4) * 64 + 1 * (y 1).val = (y 1).val; omega
  | ⟨2, _⟩ => show win0_15.index t (2 : Fin 4) * 64 + 1 * (y 2).val = (y 2).val; omega
  | ⟨3, _⟩ => show win0_15.index t (3 : Fin 4) * 256 + 1 * (y 3).val = (y 3).val; omega

/-- An index of the result is in point `t`'s block iff each coordinate is in the block's range on its axis. -/
theorem mem_blk15 (t : Fin cfg0.N) (i : S16x64x64x256.Idx) :
    i ∈ ((cfg0.win 15).blk t).view.set ↔ ∀ a : Fin 4, win0_15.index t a * S1x64x64x256.size a ≤ (i a).val
      ∧ (i a).val < win0_15.index t a * S1x64x64x256.size a + S1x64x64x256.size a := by
  show i ∈ ((View.whole main_v0).slice (win0_15.rect t)).set ↔ _
  rw [View.set_slice_whole, Rect.mem_set_unit]
  exact Iff.rfl

/-- THE COVER: every index of the result lies in the block of the point its first coordinate names, and that point
    writes its block back. -/
theorem cover15 : ∀ i : S16x64x64x256.Idx, ∃ t : Fin cfg0.N, (cfg0.win 15).flush t = true ∧ i ∈ ((cfg0.win 15).blk t).view.set := by
  intro i
  have hi0 : (i 0).val < 16 := (i 0).isLt
  have hi1 : (i 1).val < 64 := (i 1).isLt
  have hi2 : (i 2).val < 64 := (i 2).isLt
  have hi3 : (i 3).val < 256 := (i 3).isLt
  have hN : (i 0).val < cfg0.N := lt_of_lt_of_eq hi0 N16.symm
  refine ⟨⟨(i 0).val, hN⟩, flush0_15 _, ?_⟩
  obtain ⟨e0, e1, e2, e3⟩ := idx_15 ⟨(i 0).val, hN⟩
  have e0' : win0_15.index ⟨(i 0).val, hN⟩ (0 : Fin 4) = (i 0).val := e0
  rw [mem_blk15]
  intro a
  match a with
  | ⟨0, _⟩ => show win0_15.index ⟨(i 0).val, hN⟩ (0 : Fin 4) * 1 ≤ (i 0).val ∧ (i 0).val < win0_15.index ⟨(i 0).val, hN⟩ (0 : Fin 4) * 1 + 1; omega
  | ⟨1, _⟩ => show win0_15.index ⟨(i 0).val, hN⟩ (1 : Fin 4) * 64 ≤ (i 1).val ∧ (i 1).val < win0_15.index ⟨(i 0).val, hN⟩ (1 : Fin 4) * 64 + 64; omega
  | ⟨2, _⟩ => show win0_15.index ⟨(i 0).val, hN⟩ (2 : Fin 4) * 64 ≤ (i 2).val ∧ (i 2).val < win0_15.index ⟨(i 0).val, hN⟩ (2 : Fin 4) * 64 + 64; omega
  | ⟨3, _⟩ => show win0_15.index ⟨(i 0).val, hN⟩ (3 : Fin 4) * 256 ≤ (i 3).val ∧ (i 3).val < win0_15.index ⟨(i 0).val, hN⟩ (3 : Fin 4) * 256 + 256; omega

end Cert.KernelBlocks

end
-- ==== Proof.LibPairStack.lean ====
/-
  Casts and broadcasts between a matrix, a stack of its rows, and the flattened stack, read at an index.

  A kernel that scores every pair `(i, j)` of rows builds, from an `[a, c]` and a `[b, c]` matrix, the `[a, b, c]` stack of
  their pairwise row combinations — each matrix gets a unit axis and is broadcast along it —, flattens the pair axes into
  one (`[a·b, c]`: the pair `(i, j)` becomes row `i·b + j`) for a matrix product, and unflattens the result.  Each lemma
  reads one of these re-layouts at an index written by coordinates: a cast keeps the row-major position, a broadcast
  reads the operand at `0` on its unit axes.  Also: a `[1, 1]` array broadcast to a matrix, and the index a reduction
  over the last axis of a rank-3 array sums over.
-/
import Idealize.ShloMosaic.Lib.ValueIdx
import Idealize.ShloMosaic.Lib.Pipeline.Value
import Idealize.ShloMosaic.PureOps.Reduce

namespace Idealize.ShloMosaic.PairStack

open Idealize.ShloMosaic Idealize.ShloMosaic.ValueIdx

variable {α : Type}

/-- An `[a, c]` matrix cast to `[a, 1, c]` reads, at `(i, u, k)`, the matrix at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` stack broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` stack broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` row broadcast to `[a, b, c]` reads, at `(i, j, k)`, the row at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- THE FLATTENING: an `[a, b, c]` stack cast to `[n, c]` reads, at row `r = i·b + j` and column `k`, the stack at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (r : Fin n) (k : Fin c) (i : Fin a) (j : Fin b)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- THE UNFLATTENING: an `[n, c]` matrix cast to `[a, b, c]` reads, at `(i, j, k)`, the matrix at row `r = i·b + j`, column `k`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-- A `[1, 1]` array broadcast to `[a, b]` reads its one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The source index a reduction over the LAST axis of an `[a, b, c]` array sums over at result index `(i, j)`: `(i, j, k)`. -/
theorem lift_last {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext d; apply Fin.ext
  fin_cases d <;> rfl

end Idealize.ShloMosaic.PairStack
-- ==== Proof.LibPlainDot.lean ====
/-
  A plain matrix product's contraction sum, read at an index.

  For the dimension numbers of an `[M, K] × [K, N] → [M, N]` product — the left operand contracted on its second
  axis, the right on its first, no batch axis — the contraction index has one coordinate, ranging over `Fin K`; at the
  result index `(r, c)` and contraction position `k` the left operand is read at `(r, k)` and the right at `(k, c)`.
  So a sum over the contraction index of any function of the two operand indices is the sum over `k : Fin K` of that
  function at `(r, k)` and `(k, c)`. Both a kernel's matrix unit product into a zero accumulator and the host's
  `dot_general` are such sums over the extended reals (of the products of the operands' entries), so this is the one
  re-indexing either needs.
-/
import Idealize.ShloMosaic.PureOps.Dims
import Idealize.ShloMosaic.Lib.ValueIdx

namespace Idealize.ShloMosaic.PlainDot

open Idealize.ShloMosaic Idealize.ShloMosaic.ValueIdx

/-- The left operand's index at result index `(r, c)` and contraction position `k` is `(r, k)`, the right operand's
    `(k, c)`, for any record with the plain product's dimension numbers; `e` is the bijection between the contraction
    index and `Fin K`. -/
theorem plain_idx {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (r : Fin M) (c : Fin N) (k : Fin K) :
    d.lhsIdx (ix2 r c) ((contrEquiv1 d K hr hs).symm k) = ix2 r k
      ∧ d.rhsIdx (ix2 r c) ((contrEquiv1 d K hr hs).symm k) = ix2 k c := by
  constructor
  · funext a
    refine Fin.ext ?_
    match a with
    | ⟨0, _⟩ =>
      show (d.lhsIdx (ix2 r c) ((contrEquiv1 d K hr hs).symm k) 0).val = r.val
      unfold DotDims.lhsIdx
      rw [dif_neg (by rw [h5]; exact List.not_mem_nil), dif_pos (by rw [h3]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 0 _ (by decide) (by simp [h5, h3])
    | ⟨1, _⟩ =>
      show (d.lhsIdx (ix2 r c) ((contrEquiv1 d K hr hs).symm k) 1).val = k.val
      rw [d.lhsIdx_val_of_single h1]
      exact contrEquiv1_symm_val d K hr hs k
  · funext a
    refine Fin.ext ?_
    match a with
    | ⟨0, _⟩ =>
      show (d.rhsIdx (ix2 r c) ((contrEquiv1 d K hr hs).symm k) 0).val = k.val
      rw [d.rhsIdx_val_of_single h2]
      exact contrEquiv1_symm_val d K hr hs k
    | ⟨1, _⟩ =>
      show (d.rhsIdx (ix2 r c) ((contrEquiv1 d K hr hs).symm k) 1).val = c.val
      unfold DotDims.rhsIdx
      rw [dif_neg (by rw [h6]; exact List.not_mem_nil), dif_pos (by rw [h4]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 1 _ (by decide) (by simp [h5, h3, h4])

/-- THE CONTRACTION SUM OF A PLAIN PRODUCT at `(r, c)`: the sum over `k : Fin K` at the operand indices `(r, k)` and
    `(k, c)`, in any commutative additive monoid. -/
theorem plain_sum {β : Type*} [AddCommMonoid β] {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K)
    (f : (⟨2, ![M, K]⟩ : Shape).Idx → (⟨2, ![K, N]⟩ : Shape).Idx → β) (r : Fin M) (c : Fin N) :
    ∑ q : d.contr.Idx, f (d.lhsIdx (ix2 r c) q) (d.rhsIdx (ix2 r c) q) = ∑ k : Fin K, f (ix2 r k) (ix2 k c) := by
  rw [← Equiv.sum_comp (contrEquiv1 d K hr hs).symm]
  refine Finset.sum_congr rfl fun k _ => ?_
  obtain ⟨hl, hr'⟩ := plain_idx d h1 h2 h3 h4 h5 h6 hr hs r c k
  rw [hl, hr']

end Idealize.ShloMosaic.PlainDot
-- ==== Proof.LibRowsTimes.lean ====
/-
  A plain matrix product over the extended reals, as one function of its two operands.

  `rowsTimes x w` is the array whose entry `(r, c)` is the sum over `k` of `x (r, k) · w (k, c)`. Both the matrix unit's
  product into a zero accumulator and the host's `dot_general` ARE this function when their dimension numbers are the plain
  product's (the left operand contracted on its second axis, the right on its first, no batch axis): each is by definition
  the sum, over the contraction index, of the products of the operands' entries at the record's operand indices, and that
  sum is re-indexed by `k : Fin K` (`PlainDot.plain_sum`). Nothing here uses finiteness: the two sides are the same sum of
  the same products, term by term.
-/
import proofs.«146532_j41154376631134_1_alg».proof.Proof.LibPlainDot
import Idealize.ShloMosaic.PureOps.Ideal.Laws

noncomputable section

namespace Idealize.ShloMosaic.RowsTimes

open Idealize.ShloMosaic Idealize.ShloMosaic.ValueIdx

/-- Entry `(r, c)` is the sum over `k` of `x (r, k) · w (k, c)`. -/
def rowsTimes {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem rowsTimes_apply {M K N : Nat} (x : (⟨2, ![M, K]⟩ : Shape).Idx → EReal) (w : (⟨2, ![K, N]⟩ : Shape).Idx → EReal)
    (r : Fin M) (c : Fin N) : rowsTimes x w (ix2 r c) = ∑ k : Fin K, x (ix2 r k) * w (ix2 k c) := rfl

/-- The matrix unit's product into the zero accumulator, at an entry: the plain sum of products. -/
theorem matmul_zero_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) (r : Fin M) (c : Fin N) :
    FloatOps.matmul d prec x w (constant ⟨2, ![M, N]⟩ .f32 0x00000000#32) (ix2 r c)
      = ∑ k : Fin K, x (ix2 r k) * w (ix2 k c) :=
  (Ideal.matmul_constant_zero_apply d prec x w (ix2 r c)).trans
    (PlainDot.plain_sum d h1 h2 h3 h4 h5 h6 hr hs (fun i j => x i * w j) r c)

/-- The host's `dot_general` of a plain product IS `rowsTimes` of its operands. -/
theorem hostDot_eq {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) :
    Host.dotGeneral (F := Ideal) d prec x w = rowsTimes x w := by
  funext i
  obtain ⟨r, c, rfl⟩ : ∃ (r : Fin M) (c : Fin N), i = ix2 r c := ⟨i 0, i 1, eq_ix2 i⟩
  unfold Host.dotGeneral
  rw [Ideal.dotGeneral_apply]
  exact PlainDot.plain_sum d h1 h2 h3 h4 h5 h6 hr hs (fun i j => x i * w j) r c

end Idealize.ShloMosaic.RowsTimes

end
-- ==== Proof.KernelTaps.lean ====
/-
  The value path of one grid point, read at an index.

  From one image of the batch the kernel mixes the channels at every pixel (a matrix product over the flattened
  pixels, plus a bias), surrounds the mixed image with one pixel of the padding value on each side of its two
  spatial axes, and adds up, from the zero word, the nine 64 × 64 windows of the padded image at offsets
  (di, dj), di outermost. Read at pixel (h, w) and channel f this is the specification's window sum: every step
  only re-lays values, so each is read at an index and no law of arithmetic is used.
-/
import proofs.«146532_j41154376631134_1_alg».proof.Proof.Spec
import proofs.«146532_j41154376631134_1_alg».proof.Proof.Gen.KernelIdeal.Skeleton
import proofs.«146532_j41154376631134_1_alg».proof.Proof.LibPairStack
import proofs.«146532_j41154376631134_1_alg».proof.Proof.LibRowsTimes
import Idealize.ShloMosaic.Lib.ValueIdx
import Idealize.ShloMosaic.Lib.ValueLayout
import Idealize.ShloMosaic.Lib.Pipeline.Value
import Idealize.ShloMosaic.PureOps.Ideal.Laws

noncomputable section

namespace Cert.KernelTaps

open Idealize.ShloMosaic Idealize.ShloMosaic.ValueIdx
open Cert.KernelIdeal Cert.KernelIdeal.Gen

/-- The channel mix of one image: the image flattened to 4096 pixels by 256 channels, times the weights, plus the
    bias row, laid out again as 64 × 64 pixels. -/
def mixed (v0 : Vec Ideal S1x64x64x256 .f32) (v4 : Vec Ideal S256x256 .f32) (v7 : Vec Ideal S256 .f32) :
    FVec Ideal S64x64x256 .f32 :=
  have v2 : FVec Ideal S4096x256 .f32 := shapeCast S4096x256 (k0_pay2 v0) shapeCasts_S64x64x256_S4096x256
  have v3 : FVec Ideal S4096x256 .bf16 := truncf .bf16 v2 bitsLt_bf16_f32
  have v5 : FVec Ideal S256x256 .bf16 := truncf .bf16 v4 bitsLt_bf16_f32
  have cst : FVec Ideal S4096x256 .f32 := constant S4096x256 .f32 0x00000000#32
  have v6 : FVec Ideal S4096x256 .f32 := matmul dot_S4096x256_S256x256_S4096x256_1_0_0_1_n_n none v3 v5 cst
  have v8 : FVec Ideal S1x256 .f32 := shapeCast S1x256 v7 shapeCasts_S256_S1x256
  have v9 : FVec Ideal S4096x256 .f32 := broadcastTo S4096x256 v8 broadcasts_S1x256_S4096x256
  have v10 : FVec Ideal S4096x256 .f32 := addf v6 v9
  shapeCast S64x64x256 v10 shapeCasts_S4096x256_S64x64x256

/-- An image surrounded by one pixel of the padding value: a row in front of and behind the first axis, then a column
    in front of and behind the second. -/
def padImg (y : FVec Ideal S64x64x256 .f32) : FVec Ideal S66x66x256 .f32 :=
  have v12 : Ideal .f32 := Scalar.sitofp .f32 0#32
  have v13 : FVec Ideal S1x64x256 .f32 := broadcast S1x64x256 v12
  have v14 : FVec Ideal S65x64x256 .f32 := concatenate S65x64x256 0 [⟨S1x64x256, v13⟩, ⟨S64x64x256, y⟩] concatenates_S1x64x256_S64x64x256_S65x64x256_d0
  have v15 : FVec Ideal S1x64x256 .f32 := broadcast S1x64x256 v12
  have v16 : FVec Ideal S66x64x256 .f32 := concatenate S66x64x256 0 [⟨S65x64x256, v14⟩, ⟨S1x64x256, v15⟩] concatenates_S65x64x256_S1x64x256_S66x64x256_d0
  have v17 : FVec Ideal S66x1x256 .f32 := broadcast S66x1x256 v12
  have v18 : FVec Ideal S66x65x256 .f32 := concatenate S66x65x256 1 [⟨S66x1x256, v17⟩, ⟨S66x64x256, v16⟩] concatenates_S66x1x256_S66x64x256_S66x65x256_d1
  have v19 : FVec Ideal S66x1x256 .f32 := broadcast S66x1x256 v12
  concatenate S66x66x256 1 [⟨S66x65x256, v18⟩, ⟨S66x1x256, v19⟩] concatenates_S66x65x256_S66x1x256_S66x66x256_d1

/-- The nine 64 × 64 windows of a padded image added up from the zero word, row offsets outermost. -/
def windowSum (p : FVec Ideal S66x66x256 .f32) : FVec Ideal S64x64x256 .f32 :=
  have cst_6 : Ideal .f32 := Scalar.ofBits .f32 0x00000000#32
  have v21 : FVec Ideal S64x64x256 .f32 := broadcast S64x64x256 cst_6
  have v22 : FVec Ideal S64x64x256 .f32 := extractStridedSlice S64x64x256 ![0, 0, 0] p slices_S66x66x256_o0_0_0_S64x64x256
  have v23 : FVec Ideal S64x64x256 .f32 := addf v21 v22
  have v24 : FVec Ideal S64x64x256 .f32 := extractStridedSlice S64x64x256 ![0, 1, 0] p slices_S66x66x256_o0_1_0_S64x64x256
  have v25 : FVec Ideal S64x64x256 .f32 := addf v23 v24
  have v26 : FVec Ideal S64x64x256 .f32 := extractStridedSlice S64x64x256 ![0, 2, 0] p slices_S66x66x256_o0_2_0_S64x64x256
  have v27 : FVec Ideal S64x64x256 .f32 := addf v25 v26
  have v28 : FVec Ideal S64x64x256 .f32 := extractStridedSlice S64x64x256 ![1, 0, 0] p slices_S66x66x256_o1_0_0_S64x64x256
  have v29 : FVec Ideal S64x64x256 .f32 := addf v27 v28
  have v30 : FVec Ideal S64x64x256 .f32 := extractStridedSlice S64x64x256 ![1, 1, 0] p slices_S66x66x256_o1_1_0_S64x64x256
  have v31 : FVec Ideal S64x64x256 .f32 := addf v29 v30
  have v32 : FVec Ideal S64x64x256 .f32 := extractStridedSlice S64x64x256 ![1, 2, 0] p slices_S66x66x256_o1_2_0_S64x64x256
  have v33 : FVec Ideal S64x64x256 .f32 := addf v31 v32
  have v34 : FVec Ideal S64x64x256 .f32 := extractStridedSlice S64x64x256 ![2, 0, 0] p slices_S66x66x256_o2_0_0_S64x64x256
  have v35 : FVec Ideal S64x64x256 .f32 := addf v33 v34
  have v36 : FVec Ideal S64x64x256 .f32 := extractStridedSlice S64x64x256 ![2, 1, 0] p slices_S66x66x256_o2_1_0_S64x64x256
  have v37 : FVec Ideal S64x64x256 .f32 := addf v35 v36
  have v38 : FVec Ideal S64x64x256 .f32 := extractStridedSlice S64x64x256 ![2, 2, 0] p slices_S66x66x256_o2_2_0_S64x64x256
  addf v37 v38

/-- The payload is these three steps one after the other. -/
theorem pay3_eq (v0 : Vec Ideal S1x64x64x256 .f32) (v4 : Vec Ideal S256x256 .f32) (v7 : Vec Ideal S256 .f32) :
    k0_pay3 (F := Ideal) v0 v4 v7 = windowSum (padImg (mixed v0 v4 v7)) := rfl

/-! ## The channel mix -/

/-- The flattened image at row `64·h + w` and channel `c` is the image at pixel `(h, w)` and channel `c`. -/
theorem flat_apply (x : Cert.Spec.Img) (b : Fin 16) (v0 : Vec Ideal S1x64x64x256 .f32)
    (hv0 : ∀ (h w : Fin 64) (c : Fin 256), v0 (ix4 (0 : Fin 1) h w c) = x (ix4 b h w c))
    (h w : Fin 64) (c : Fin 256) (r : Fin 4096) (hr : r.val = h.val * 64 + w.val) :
    shapeCast S4096x256 (k0_pay2 v0) shapeCasts_S64x64x256_S4096x256 (ix2 r c) = x (ix4 b h w c) := by
  refine (PairStack.shapeCast_abc_nc_apply (k0_pay2 v0) shapeCasts_S64x64x256_S4096x256 r c h w hr).trans ?_
  unfold k0_pay2
  exact (shapeCast_1abc_abc_apply v0 shapeCasts_S1x64x64x256_S64x64x256 h w c).trans (hv0 h w c)

/-- The bias row spread over the 4096 pixels reads the bias of the channel. -/
theorem bias_apply (v7 : Vec Ideal S256 .f32) (r : Fin 4096) (f : Fin 256) :
    broadcastTo S4096x256 (shapeCast S1x256 v7 shapeCasts_S256_S1x256) broadcasts_S1x256_S4096x256 (ix2 r f)
      = v7 (ix1 f) :=
  (broadcastTo_1b_ab_apply (shapeCast S1x256 v7 shapeCasts_S256_S1x256) broadcasts_S1x256_S4096x256 r f).trans
    (shapeCast_a_1a_apply v7 shapeCasts_S256_S1x256 (0 : Fin 1) f)

/-- The mixed image at a pixel and channel is the specification's channel mix of image `b`. -/
theorem mixed_apply (x : Cert.Spec.Img) (w3 : Cert.Spec.Mat 256 256) (b3 : Cert.Spec.Row 256) (b : Fin 16)
    (v0 : Vec Ideal S1x64x64x256 .f32)
    (hv0 : ∀ (h w : Fin 64) (c : Fin 256), v0 (ix4 (0 : Fin 1) h w c) = x (ix4 b h w c))
    (h w : Fin 64) (f : Fin 256) :
    mixed v0 w3 b3 (ix3 h w f) = Cert.Spec.conv x w3 b3 b h w f := by
  have hlt : h.val * 64 + w.val < 4096 := by omega
  unfold mixed
  refine (PairStack.shapeCast_nc_abc_apply _ shapeCasts_S4096x256_S64x64x256 h w f ⟨h.val * 64 + w.val, hlt⟩ rfl).trans ?_
  unfold Cert.Spec.conv
  refine congrArg₂ (· + ·) ?_ (bias_apply b3 ⟨h.val * 64 + w.val, hlt⟩ f)
  refine (RowsTimes.matmul_zero_apply dot_S4096x256_S256x256_S4096x256_1_0_0_1_n_n rfl rfl rfl rfl rfl rfl rfl rfl none
    _ _ ⟨h.val * 64 + w.val, hlt⟩ f).trans ?_
  refine Finset.sum_congr rfl fun c _ => ?_
  exact congrArg (· * w3 (ix2 c f)) (flat_apply x b v0 hv0 h w c ⟨h.val * 64 + w.val, hlt⟩ rfl)

/-! ## Two arrays side by side, read at an index -/

section Stack
variable {α : Type}

/-- Two rank-3 arrays stacked along the first axis, read in the first one. -/
theorem cat0_left {n1 n2 n b c : Nat} (x1 : (⟨3, ![n1, b, c]⟩ : Shape).Idx → α) (x2 : (⟨3, ![n2, b, c]⟩ : Shape).Idx → α)
    (h : Shape.Concatenates [(⟨3, ![n1, b, c]⟩ : Shape), ⟨3, ![n2, b, c]⟩] ⟨3, ![n, b, c]⟩ (0 : Fin 3))
    (i : Fin n) (j : Fin b) (k : Fin c) (hi : i.val < n1) :
    concatenate ⟨3, ![n, b, c]⟩ (0 : Fin 3) [⟨⟨3, ![n1, b, c]⟩, x1⟩, ⟨⟨3, ![n2, b, c]⟩, x2⟩] h (ix3 i j k)
      = x1 (ix3 ⟨i.val, hi⟩ j k) :=
  concatenate_pair_apply_left (0 : Fin 3) x1 x2 h (ix3 i j k) rfl (ix3 ⟨i.val, hi⟩ j k) fun a =>
    match a with
    | ⟨0, _⟩ => rfl
    | ⟨1, _⟩ => rfl
    | ⟨2, _⟩ => rfl

/-- Two rank-3 arrays stacked along the first axis, read in the second one. -/
theorem cat0_right {n1 n2 n b c : Nat} (x1 : (⟨3, ![n1, b, c]⟩ : Shape).Idx → α) (x2 : (⟨3, ![n2, b, c]⟩ : Shape).Idx → α)
    (h : Shape.Concatenates [(⟨3, ![n1, b, c]⟩ : Shape), ⟨3, ![n2, b, c]⟩] ⟨3, ![n, b, c]⟩ (0 : Fin 3))
    (i : Fin n) (j : Fin b) (k : Fin c) (hi : n1 ≤ i.val) (hlt : i.val - n1 < n2) :
    concatenate ⟨3, ![n, b, c]⟩ (0 : Fin 3) [⟨⟨3, ![n1, b, c]⟩, x1⟩, ⟨⟨3, ![n2, b, c]⟩, x2⟩] h (ix3 i j k)
      = x2 (ix3 ⟨i.val - n1, hlt⟩ j k) :=
  concatenate_pair_apply_right (0 : Fin 3) x1 x2 h (ix3 i j k) rfl rfl (ix3 ⟨i.val - n1, hlt⟩ j k)
    (fun a ha =>
      match a, ha with
      | ⟨0, _⟩, ha => absurd (Fin.ext rfl) ha
      | ⟨1, _⟩, _ => rfl
      | ⟨2, _⟩, _ => rfl)
    (by show i.val - n1 + n1 = i.val; omega)

/-- Two rank-3 arrays stacked along the second axis, read in the first one. -/
theorem cat1_left {a n1 n2 n c : Nat} (x1 : (⟨3, ![a, n1, c]⟩ : Shape).Idx → α) (x2 : (⟨3, ![a, n2, c]⟩ : Shape).Idx → α)
    (h : Shape.Concatenates [(⟨3, ![a, n1, c]⟩ : Shape), ⟨3, ![a, n2, c]⟩] ⟨3, ![a, n, c]⟩ (1 : Fin 3))
    (i : Fin a) (j : Fin n) (k : Fin c) (hj : j.val < n1) :
    concatenate ⟨3, ![a, n, c]⟩ (1 : Fin 3) [⟨⟨3, ![a, n1, c]⟩, x1⟩, ⟨⟨3, ![a, n2, c]⟩, x2⟩] h (ix3 i j k)
      = x1 (ix3 i ⟨j.val, hj⟩ k) :=
  concatenate_pair_apply_left (1 : Fin 3) x1 x2 h (ix3 i j k) rfl (ix3 i ⟨j.val, hj⟩ k) fun d =>
    match d with
    | ⟨0, _⟩ => rfl
    | ⟨1, _⟩ => rfl
    | ⟨2, _⟩ => rfl

/-- Two rank-3 arrays stacked along the second axis, read in the second one. -/
theorem cat1_right {a n1 n2 n c : Nat} (x1 : (⟨3, ![a, n1, c]⟩ : Shape).Idx → α) (x2 : (⟨3, ![a, n2, c]⟩ : Shape).Idx → α)
    (h : Shape.Concatenates [(⟨3, ![a, n1, c]⟩ : Shape), ⟨3, ![a, n2, c]⟩] ⟨3, ![a, n, c]⟩ (1 : Fin 3))
    (i : Fin a) (j : Fin n) (k : Fin c) (hj : n1 ≤ j.val) (hlt : j.val - n1 < n2) :
    concatenate ⟨3, ![a, n, c]⟩ (1 : Fin 3) [⟨⟨3, ![a, n1, c]⟩, x1⟩, ⟨⟨3, ![a, n2, c]⟩, x2⟩] h (ix3 i j k)
      = x2 (ix3 i ⟨j.val - n1, hlt⟩ k) :=
  concatenate_pair_apply_right (1 : Fin 3) x1 x2 h (ix3 i j k) rfl rfl (ix3 i ⟨j.val - n1, hlt⟩ k)
    (fun d hd =>
      match d, hd with
      | ⟨0, _⟩, _ => rfl
      | ⟨1, _⟩, hd => absurd (Fin.ext rfl) hd
      | ⟨2, _⟩, _ => rfl)
    (by show j.val - n1 + n1 = j.val; omega)

end Stack

/-! ## The padded image -/

/-- The padded image at `(i, j)`: the image at `(i − 1, j − 1)` when both lie in 1 … 64, the padding value on the
    border. By cases on where `j` and then `i` fall among the stacked pieces. -/
theorem padImg_apply (y : FVec Ideal S64x64x256 .f32) (i j : Nat) (hi : i < 66) (hj : j < 66) (f : Fin 256) :
    padImg y (ix3 (⟨i, hi⟩ : Fin 66) (⟨j, hj⟩ : Fin 66) f)
      = if hij : (1 ≤ i ∧ i ≤ 64) ∧ (1 ≤ j ∧ j ≤ 64) then
          y (ix3 (⟨i - 1, by omega⟩ : Fin 64) (⟨j - 1, by omega⟩ : Fin 64) f)
        else Cert.Spec.padW := by
  unfold padImg
  by_cases hj65 : j < 65
  · refine (cat1_left _ _ concatenates_S66x65x256_S66x1x256_S66x66x256_d1 (⟨i, hi⟩ : Fin 66) (⟨j, hj⟩ : Fin 66) f hj65).trans ?_
    by_cases hj1 : 1 ≤ j
    · have hj64 : j - 1 < 64 := by omega
      refine (cat1_right _ _ concatenates_S66x1x256_S66x64x256_S66x65x256_d1 (⟨i, hi⟩ : Fin 66) (⟨j, hj65⟩ : Fin 65) f hj1 hj64).trans ?_
      by_cases hi65 : i < 65
      · refine (cat0_left _ _ concatenates_S65x64x256_S1x64x256_S66x64x256_d0 (⟨i, hi⟩ : Fin 66) (⟨j - 1, hj64⟩ : Fin 64) f hi65).trans ?_
        by_cases hi1 : 1 ≤ i
        · have hi64 : i - 1 < 64 := by omega
          refine (cat0_right _ _ concatenates_S1x64x256_S64x64x256_S65x64x256_d0 (⟨i, hi65⟩ : Fin 65) (⟨j - 1, hj64⟩ : Fin 64) f hi1 hi64).trans ?_
          refine Eq.symm ?_
          exact dif_pos (⟨⟨hi1, by omega⟩, ⟨hj1, by omega⟩⟩ : (1 ≤ i ∧ i ≤ 64) ∧ (1 ≤ j ∧ j ≤ 64))
        · have hi0 : i < 1 := by omega
          refine (cat0_left _ _ concatenates_S1x64x256_S64x64x256_S65x64x256_d0 (⟨i, hi65⟩ : Fin 65) (⟨j - 1, hj64⟩ : Fin 64) f hi0).trans ?_
          have hn : ¬((1 ≤ i ∧ i ≤ 64) ∧ (1 ≤ j ∧ j ≤ 64)) := by omega
          refine Eq.symm ?_
          exact dif_neg hn
      · have hi0 : i - 65 < 1 := by omega
        refine (cat0_right _ _ concatenates_S65x64x256_S1x64x256_S66x64x256_d0 (⟨i, hi⟩ : Fin 66) (⟨j - 1, hj64⟩ : Fin 64) f (by show 65 ≤ i; omega) hi0).trans ?_
        have hn : ¬((1 ≤ i ∧ i ≤ 64) ∧ (1 ≤ j ∧ j ≤ 64)) := by omega
        refine Eq.symm ?_
        exact dif_neg hn
    · have hj0 : j < 1 := by omega
      refine (cat1_left _ _ concatenates_S66x1x256_S66x64x256_S66x65x256_d1 (⟨i, hi⟩ : Fin 66) (⟨j, hj65⟩ : Fin 65) f hj0).trans ?_
      have hn : ¬((1 ≤ i ∧ i ≤ 64) ∧ (1 ≤ j ∧ j ≤ 64)) := by omega
      refine Eq.symm ?_
      exact dif_neg hn
  · have hj0 : j - 65 < 1 := by omega
    refine (cat1_right _ _ concatenates_S66x65x256_S66x1x256_S66x66x256_d1 (⟨i, hi⟩ : Fin 66) (⟨j, hj⟩ : Fin 66) f (by show 65 ≤ j; omega) hj0).trans ?_
    have hn : ¬((1 ≤ i ∧ i ≤ 64) ∧ (1 ≤ j ∧ j ≤ 64)) := by omega
    refine Eq.symm ?_
    exact dif_neg hn

/-- The mixed image, padded, is the specification's padded image of image `b`. -/
theorem padImg_mixed (x : Cert.Spec.Img) (w3 : Cert.Spec.Mat 256 256) (b3 : Cert.Spec.Row 256) (b : Fin 16)
    (v0 : Vec Ideal S1x64x64x256 .f32)
    (hv0 : ∀ (h w : Fin 64) (c : Fin 256), v0 (ix4 (0 : Fin 1) h w c) = x (ix4 b h w c))
    (i j : Nat) (hi : i < 66) (hj : j < 66) (f : Fin 256) :
    padImg (mixed v0 w3 b3) (ix3 (⟨i, hi⟩ : Fin 66) (⟨j, hj⟩ : Fin 66) f) = Cert.Spec.padded x w3 b3 b i j f := by
  refine (padImg_apply (mixed v0 w3 b3) i j hi hj f).trans ?_
  unfold Cert.Spec.padded
  by_cases hij : (1 ≤ i ∧ i ≤ 64) ∧ (1 ≤ j ∧ j ≤ 64)
  · rw [dif_pos hij, dif_pos hij]
    exact mixed_apply x w3 b3 b v0 hv0 _ _ f
  · rw [dif_neg hij, dif_neg hij]

/-! ## The nine windows and their sum -/

/-- The window of a padded image at offset `(di, dj)`, read at a pixel: the padded image at `(h + di, w + dj)`. -/
theorem slice_apply (p : FVec Ideal S66x66x256 .f32) (di dj : Nat) (hdi : di ≤ 2) (hdj : dj ≤ 2)
    (hs : S66x66x256.Slices ![di, dj, 0] S64x64x256) (h w : Fin 64) (f : Fin 256) :
    extractStridedSlice S64x64x256 ![di, dj, 0] p hs (ix3 h w f)
      = p (ix3 (⟨h.val + di, by omega⟩ : Fin 66) (⟨w.val + dj, by omega⟩ : Fin 66) f) :=
  extractStridedSlice_apply ![di, dj, 0] p hs (ix3 h w f)
    (ix3 (⟨h.val + di, by omega⟩ : Fin 66) (⟨w.val + dj, by omega⟩ : Fin 66) f) fun a =>
    match a with
    | ⟨0, _⟩ => by show h.val + di = di + h.val; omega
    | ⟨1, _⟩ => by show w.val + dj = dj + w.val; omega
    | ⟨2, _⟩ => by show f.val = 0 + f.val; omega

/-- The window at offset `(di, dj)` of the padded mixed image is the specification's padded image at
    `(h + di, w + dj)`. -/
theorem window_apply (x : Cert.Spec.Img) (w3 : Cert.Spec.Mat 256 256) (b3 : Cert.Spec.Row 256) (b : Fin 16)
    (v0 : Vec Ideal S1x64x64x256 .f32)
    (hv0 : ∀ (h w : Fin 64) (c : Fin 256), v0 (ix4 (0 : Fin 1) h w c) = x (ix4 b h w c))
    (di dj : Nat) (hdi : di ≤ 2) (hdj : dj ≤ 2) (hs : S66x66x256.Slices ![di, dj, 0] S64x64x256)
    (h w : Fin 64) (f : Fin 256) :
    extractStridedSlice S64x64x256 ![di, dj, 0] (padImg (mixed v0 w3 b3)) hs (ix3 h w f)
      = Cert.Spec.padded x w3 b3 b (h.val + di) (w.val + dj) f :=
  (slice_apply (padImg (mixed v0 w3 b3)) di dj hdi hdj hs h w f).trans
    (padImg_mixed x w3 b3 b v0 hv0 (h.val + di) (w.val + dj) (by omega) (by omega) f)

/-- THE VALUE PATH OF ONE GRID POINT: the payload at a pixel and channel is the specification's window sum of the
    image the loaded block holds. -/
theorem taps_block (x : Cert.Spec.Img) (w3 : Cert.Spec.Mat 256 256) (b3 : Cert.Spec.Row 256) (b : Fin 16)
    (v0 : Vec Ideal Cert.KernelIdeal.S1x64x64x256 .f32)
    (hv0 : ∀ (h w : Fin 64) (c : Fin 256), v0 (ix4 (0 : Fin 1) h w c) = x (ix4 b h w c))
    (h w : Fin 64) (f : Fin 256) :
    Cert.KernelIdeal.Gen.k0_pay3 (F := Ideal) v0 w3 b3 (ix3 h w f) = Cert.Spec.taps x w3 b3 b h w f := by
  rw [pay3_eq]
  unfold windowSum Cert.Spec.taps
  refine congrArg₂ (· + ·) ?_ (window_apply x w3 b3 b v0 hv0 2 2 (by omega) (by omega) slices_S66x66x256_o2_2_0_S64x64x256 h w f)
  refine congrArg₂ (· + ·) ?_ (window_apply x w3 b3 b v0 hv0 2 1 (by omega) (by omega) slices_S66x66x256_o2_1_0_S64x64x256 h w f)
  refine congrArg₂ (· + ·) ?_ (window_apply x w3 b3 b v0 hv0 2 0 (by omega) (by omega) slices_S66x66x256_o2_0_0_S64x64x256 h w f)
  refine congrArg₂ (· + ·) ?_ (window_apply x w3 b3 b v0 hv0 1 2 (by omega) (by omega) slices_S66x66x256_o1_2_0_S64x64x256 h w f)
  refine congrArg₂ (· + ·) ?_ (window_apply x w3 b3 b v0 hv0 1 1 (by omega) (by omega) slices_S66x66x256_o1_1_0_S64x64x256 h w f)
  refine congrArg₂ (· + ·) ?_ (window_apply x w3 b3 b v0 hv0 1 0 (by omega) (by omega) slices_S66x66x256_o1_0_0_S64x64x256 h w f)
  refine congrArg₂ (· + ·) ?_ (window_apply x w3 b3 b v0 hv0 0 2 (by omega) (by omega) slices_S66x66x256_o0_2_0_S64x64x256 h w f)
  refine congrArg₂ (· + ·) ?_ (window_apply x w3 b3 b v0 hv0 0 1 (by omega) (by omega) slices_S66x66x256_o0_1_0_S64x64x256 h w f)
  exact congrArg₂ (· + ·) rfl (window_apply x w3 b3 b v0 hv0 0 0 (by omega) (by omega) slices_S66x66x256_o0_0_0_S64x64x256 h w f)

end Cert.KernelTaps

end
-- ==== Proof.LibColumnBroadcast.lean ====
/-
  A column broadcast along the rows of a matrix, read at an index.

  A vector kept as an `[a, 1]` column (one entry per row) and broadcast to `[a, b]` repeats each row's entry across
  that row: at `(p, c)` the result is the column's entry of row `p`, whatever the column `c`. This is the form a
  per-row scale, bias or divisor takes before it meets an `[a, b]` matrix elementwise.
-/
import Idealize.ShloMosaic.Lib.ValueLayout

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibKeepdimsSum.lean ====
/-
  A row sum kept as a column, read at an index.

  `jnp.sum(x, axis=-1, keepdims=True)` of an `[a, b]` matrix is computed as a sum along the last axis into an `[a]`
  vector, which a shape cast then stands up as an `[a, 1]` column. Over the extended reals the sum from the zero
  accumulator is the plain finite sum of the row, so the column's entry at `(p, 0)` is Σ_k x[p, k].
-/
import Idealize.ShloMosaic.Lib.ValueLayout
import Idealize.ShloMosaic.PureOps.Ideal.Laws

namespace Cert.KeepdimsSum

open Idealize.ShloMosaic Idealize.ShloMosaic.ValueIdx

variable {α : Type}

/-- An `[a]` vector cast to an `[a, 1]` column reads, at `(p, u)`, the vector's entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A float sum along the last axis of an `[a, b]` matrix from the zero accumulator, read over the extended reals:
    entry `p` of the result is the finite sum of row `p`. -/
theorem rowSum_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  match c with
  | ⟨0, _⟩ => rfl
  | ⟨1, _⟩ => rfl

/-- The same sum kept as an `[a, 1]` column: its entry at `(p, u)` is the finite sum of row `p`. -/
theorem rowSum_column_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u)
      = ∑ k : Fin b, src (ix2 p k) :=
  (shapeCast_a_a1_apply _ hc p u).trans (rowSum_apply src h hφ hacc p)

end Cert.KeepdimsSum
-- ==== Proof.LibChannelRows.lean ====
/-
  Per-channel and per-row vectors met with a matrix or an image, read at an index; and a row's maximum.

  A vector of per-channel parameters (a bias, a mean, a scale) meets an `[m, n]` matrix or an `[a, b, n]` image after
  it is given unit axes in front and broadcast along them: at every row, or pixel, the result reads the vector at the
  channel. A vector of per-row values (a row's maximum, a row's sum) meets an `[a, b]` matrix after it is stood up as an
  `[a, 1]` column and broadcast across the columns: at `(p, c)` the result reads the vector at the row `p`. And over
  the extended reals the maximum along the last axis of an `[a, b]` matrix, taken from the accumulator word of −∞, is
  at row `p` the fold of `max` over the row's entries from that word's value.
-/
import Idealize.ShloMosaic.Lib.ValueLayout
import Idealize.ShloMosaic.PureOps.Ideal.Laws
import proofs.«146532_j41154376631134_1_alg».proof.Proof.LibPairStack
import proofs.«146532_j41154376631134_1_alg».proof.Proof.LibColumnBroadcast
import proofs.«146532_j41154376631134_1_alg».proof.Proof.LibKeepdimsSum

namespace Cert.ChannelRows

open Idealize.ShloMosaic Idealize.ShloMosaic.ValueIdx

variable {α : Type}

/-- An `[a]` vector cast to `[1, 1, a]` reads, at `(u, v, i)`, the vector's entry `i`. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]
    simp)

/-- A per-channel vector given two unit axes and broadcast over an `[a, b, n]` image reads, at every pixel, the
    vector at the channel. -/
theorem channel_over_image_apply {a b n : ℕ} (x : (⟨1, ![n]⟩ : Shape).Idx → α)
    (hc : (⟨1, ![n]⟩ : Shape).ShapeCasts ⟨3, ![1, 1, n]⟩) (hb : (⟨3, ![1, 1, n]⟩ : Shape).Broadcasts ⟨3, ![a, b, n]⟩)
    (i : Fin a) (j : Fin b) (k : Fin n) :
    broadcastTo ⟨3, ![a, b, n]⟩ (shapeCast ⟨3, ![1, 1, n]⟩ x hc) hb (ix3 i j k) = x (ix1 k) :=
  (PairStack.broadcastTo_11c_abc_apply _ hb i j k).trans (shapeCast_a_11a_apply x hc 0 0 k)

/-- A `[1, 1, n]` row broadcast over an `[a, b, n]` image, when the row's entries are known. -/
theorem row_over_image_apply {a b n : ℕ} (v : (⟨3, ![1, 1, n]⟩ : Shape).Idx → α)
    (hb : (⟨3, ![1, 1, n]⟩ : Shape).Broadcasts ⟨3, ![a, b, n]⟩) (i : Fin a) (j : Fin b) (k : Fin n) :
    broadcastTo ⟨3, ![a, b, n]⟩ v hb (ix3 i j k) = v (ix3 (0 : Fin 1) (0 : Fin 1) k) :=
  PairStack.broadcastTo_11c_abc_apply v hb i j k

/-- A per-channel vector given one unit axis and broadcast down the rows of an `[m, n]` matrix reads, at every row,
    the vector at the column. -/
theorem channel_over_rows_apply {m n : ℕ} (x : (⟨1, ![n]⟩ : Shape).Idx → α)
    (hc : (⟨1, ![n]⟩ : Shape).ShapeCasts ⟨2, ![1, n]⟩) (hb : (⟨2, ![1, n]⟩ : Shape).Broadcasts ⟨2, ![m, n]⟩)
    (p : Fin m) (c : Fin n) :
    broadcastTo ⟨2, ![m, n]⟩ (shapeCast ⟨2, ![1, n]⟩ x hc) hb (ix2 p c) = x (ix1 c) :=
  (broadcastTo_1b_ab_apply _ hb p c).trans (shapeCast_a_1a_apply x hc 0 c)

/-- A per-row vector stood up as a column and broadcast across the columns of an `[a, b]` matrix reads, at `(p, c)`,
    the vector at the row. -/
theorem row_value_over_columns_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (Cert.KeepdimsSum.shapeCast_a_a1_apply x hc p 0)

/-- Over the extended reals, the maximum along the last axis of an `[a, b]` matrix from the accumulator word of −∞:
    entry `p` is the fold of `max`, from that word's value, over the entries of row `p`. -/
theorem rowMax_apply {a b : ℕ} (src : FVec Ideal (⟨2, ![a, b]⟩ : Shape) .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  refine congrArg (fun g : Fin b → EReal => (Finset.univ : Finset (Fin b)).fold max (Ideal.ofBits .f32 0xFF800000#32) g)
    (funext fun k => congrArg src (funext fun c => Fin.ext ?_))
  match c with
  | ⟨0, _⟩ => rfl
  | ⟨1, _⟩ => rfl

end Cert.ChannelRows
-- ==== Proof.KernelAttention.lean ====
/-
  The attention path of the kernel's body, read at an index.

  At a grid point the body works on one image of the batch, flattened to a [4096, 256] matrix whose row 64·h + w is
  pixel (h, w). Its attention path normalises each channel, multiplies by the first weight matrix into a zero
  accumulator, adds the bias, clamps at zero, normalises again — that is the payload this file reads first, entry
  (64·h + w, a) of which is the specification's `norm2` at pixel (h, w) and hidden channel a —; then multiplies by the
  second weight matrix, adds the bias, clamps at zero, takes each row's maximum from −∞, subtracts it, exponentiates,
  divides by the row's sum, unflattens, multiplies by the window sum and puts the unit batch axis back: entry
  (0, h, w, f) of that last payload is the specification's result at (h, w, f) of the point's image.

  A matrix product into the zero accumulator is the plain sum of products; a change of float format is the identity;
  the row maximum is a fold of `max` and the row sum a finite sum over the row's entries. The softmax payload is cut
  into three stages over an abstract matrix so that each read is small.
-/
import proofs.«146532_j41154376631134_1_alg».proof.Proof.Spec
import proofs.«146532_j41154376631134_1_alg».proof.Proof.LibChannelRows
import proofs.«146532_j41154376631134_1_alg».proof.Proof.LibRowsTimes
import proofs.«146532_j41154376631134_1_alg».proof.Proof.Gen.KernelIdeal.Skeleton

noncomputable section

namespace Cert.KernelAttention

open Idealize.ShloMosaic Idealize.ShloMosaic.ValueIdx Cert.KernelIdeal Cert.KernelIdeal.Gen
open Cert.ChannelRows

/-- The reciprocal square root of a vector, entry by entry. -/
theorem rsqrt_apply {s : Shape} {φ : FTy} (v : FVec Ideal s φ) (i : s.Idx) : rsqrt v i = Ideal.rsqrt (v i) := rfl
/-- The exponential of a vector, entry by entry. -/
theorem exp_apply {s : Shape} {φ : FTy} (v : FVec Ideal s φ) (i : s.Idx) : exp v i = Ideal.exp (v i) := rfl

/-- The row of the flattened [4096, ·] matrix that holds pixel (h, w). -/
def row (h w : Fin 64) : Fin 4096 := ⟨h.val * 64 + w.val, by have := h.isLt; have := w.isLt; omega⟩

/-! ## The small payloads: the block without its unit axis, the mean as a [1, 1, 256] row, the second weights -/

/-- The loaded [1, 64, 64, 256] block with its unit axis dropped reads the block at batch coordinate 0. -/
theorem pay2_apply (v0 : Vec Ideal S1x64x64x256 .f32) (h w : Fin 64) (c : Fin 256) :
    k0_pay2 (F := Ideal) v0 (ix3 h w c) = v0 (ix4 (0 : Fin 1) h w c) :=
  shapeCast_1abc_abc_apply v0 _ h w c

/-- The mean vector given two unit axes reads the vector at the channel. -/
theorem pay4_apply (v42 : Vec Ideal S256 .f32) (c : Fin 256) :
    k0_pay4 (F := Ideal) v42 (ix3 (0 : Fin 1) (0 : Fin 1) c) = v42 (ix1 c) :=
  shapeCast_a_11a_apply v42 _ 0 0 c

/-- The second weight matrix in the narrower float format is, over the extended reals, the matrix itself. -/
theorem pay6_apply (v90 : Vec Ideal S32x256 .f32) (a : Fin 32) (f : Fin 256) :
    k0_pay6 (F := Ideal) v90 (ix2 a f) = v90 (ix2 a f) := rfl

/-! ## The two normalisations and the first layer -/

/-- Entry (64·h + w, a) of the first attention payload is the specification's second normalisation at pixel (h, w),
    hidden channel a, of the image the block holds. -/
theorem norm2_block (x : Cert.Spec.Img) (g1 be1 mu1 var1 : Cert.Spec.Row 256) (wa1 : Cert.Spec.Mat 256 32)
    (ba1 : Cert.Spec.Row 32) (g2 be2 mu2 var2 : Cert.Spec.Row 32) (b : Fin 16)
    (v1 : FVec Ideal S64x64x256 .f32) (hv1 : ∀ (h w : Fin 64) (c : Fin 256), v1 (ix3 h w c) = x (ix4 b h w c))
    (v44 : FVec Ideal S1x1x256 .f32) (hv44 : ∀ c : Fin 256, v44 (ix3 (0 : Fin 1) (0 : Fin 1) c) = mu1 (ix1 c))
    (h w : Fin 64) (a : Fin 32) :
    k0_pay5 (F := Ideal) v1 g1 be1 var1 v44 wa1 ba1 g2 be2 mu2 var2 (ix2 (row h w) a)
      = Cert.Spec.norm2 x g1 be1 mu1 var1 wa1 ba1 g2 be2 mu2 var2 b h w a := by
  have flat : ∀ (y : FVec Ideal S64x64x256 .f32) (k : Fin 256),
      shapeCast S4096x256 y shapeCasts_S64x64x256_S4096x256 (ix2 (row h w) k) = y (ix3 h w k) :=
    fun y k => PairStack.shapeCast_abc_nc_apply y _ (row h w) k h w rfl
  unfold k0_pay5
  simp only [truncf_apply, addf_apply, mulf_apply, subf_apply, maximumf_apply, broadcast_apply]
  simp only [RowsTimes.matmul_zero_apply dot_S4096x256_S256x32_S4096x32_1_0_0_1_n_n rfl rfl rfl rfl rfl rfl rfl rfl]
  simp only [truncf_apply, flat, addf_apply, mulf_apply, subf_apply, broadcast_apply, channel_over_rows_apply,
    channel_over_image_apply, row_over_image_apply, shapeCast_a_11a_apply, rsqrt_apply, hv1, hv44, Ideal.ofBits_def]
  rfl

/-! ## The second layer and the softmax, stage by stage -/

/-- The clamped logits of the flattened image: the second layer's product with its bias, clamped at zero. -/
def logitsBlk (v89 : FVec Ideal S4096x32 .bf16) (v91 : FVec Ideal S32x256 .bf16) (v93 : Vec Ideal S256 .f32) :
    FVec Ideal S4096x256 .f32 :=
  maximumf (addf (matmul dot_S4096x32_S32x256_S4096x256_1_0_0_1_n_n none v89 v91 (constant S4096x256 .f32 0x00000000#32))
      (broadcastTo S4096x256 (shapeCast S1x256 v93 shapeCasts_S256_S1x256) broadcasts_S1x256_S4096x256))
    (broadcast S4096x256 (Scalar.ofBits .f32 0x00000000#32))

/-- Each entry's exponential after its row's maximum is taken off. -/
def expBlk (L : FVec Ideal S4096x256 .f32) : FVec Ideal S4096x256 .f32 :=
  exp (subf L (broadcastTo S4096x256 (shapeCast S4096x1
    (maximumf (broadcast S4096 (Scalar.ofBits .f32 0xFF800000#32))
      (multiReduction .maximumf [1] S4096 L 0xFF800000#32 reduces_S4096x256_S4096 (.inl rfl) rfl))
    shapeCasts_S4096_S4096x1) broadcasts_S4096x1_S4096x256))

/-- Each entry over its row's sum. -/
def softBlk (E : FVec Ideal S4096x256 .f32) : FVec Ideal S4096x256 .f32 :=
  divf E (broadcastTo S4096x256 (shapeCast S4096x1
    (multiReduction .add [1] S4096 E 0x00000000#32 reduces_S4096x256_S4096 (.inl rfl) rfl)
    shapeCasts_S4096_S4096x1) broadcasts_S4096x1_S4096x256)

/-- The last payload is these three stages, unflattened, times the window sum, with the unit batch axis put back. -/
theorem pay1_eq (v39 : FVec Ideal S64x64x256 .f32) (v89 : FVec Ideal S4096x32 .bf16) (v91 : FVec Ideal S32x256 .bf16)
    (v93 : Vec Ideal S256 .f32) :
    k0_pay1 (F := Ideal) v39 v89 v91 v93
      = shapeCast S1x64x64x256 (mulf (shapeCast S64x64x256 (softBlk (expBlk (logitsBlk v89 v91 v93)))
          shapeCasts_S4096x256_S64x64x256) v39) shapeCasts_S64x64x256_S1x64x64x256 := rfl

section Stages

variable (x : Cert.Spec.Img) (w3 : Cert.Spec.Mat 256 256) (b3 : Cert.Spec.Row 256)
variable (g1 be1 mu1 var1 : Cert.Spec.Row 256) (wa1 : Cert.Spec.Mat 256 32) (ba1 : Cert.Spec.Row 32)
variable (g2 be2 mu2 var2 : Cert.Spec.Row 32) (wa2 : Cert.Spec.Mat 32 256) (ba2 : Cert.Spec.Row 256) (b : Fin 16)

/-- The clamped logits at row 64·h + w, column f, are the specification's logit at pixel (h, w), channel f. -/
theorem logits_apply (v89 : FVec Ideal S4096x32 .bf16)
    (hv89 : ∀ (h w : Fin 64) (a : Fin 32),
      v89 (ix2 (row h w) a) = Cert.Spec.norm2 x g1 be1 mu1 var1 wa1 ba1 g2 be2 mu2 var2 b h w a)
    (v91 : FVec Ideal S32x256 .bf16) (hv91 : ∀ (a : Fin 32) (f : Fin 256), v91 (ix2 a f) = wa2 (ix2 a f))
    (h w : Fin 64) (f : Fin 256) :
    logitsBlk v89 v91 ba2 (ix2 (row h w) f)
      = Cert.Spec.logit x g1 be1 mu1 var1 wa1 ba1 g2 be2 mu2 var2 wa2 ba2 b h w f := by
  unfold logitsBlk
  simp only [maximumf_apply, addf_apply, broadcast_apply, channel_over_rows_apply,
    RowsTimes.matmul_zero_apply dot_S4096x32_S32x256_S4096x256_1_0_0_1_n_n rfl rfl rfl rfl rfl rfl rfl rfl,
    hv89, hv91]
  rfl

/-- The exponential stage: the row's maximum is the fold of `max` from −∞ over the row's 256 logits, compared once
    more with −∞. -/
theorem expo_apply (L : FVec Ideal S4096x256 .f32)
    (hL : ∀ (h w : Fin 64) (f : Fin 256),
      L (ix2 (row h w) f) = Cert.Spec.logit x g1 be1 mu1 var1 wa1 ba1 g2 be2 mu2 var2 wa2 ba2 b h w f)
    (h w : Fin 64) (f : Fin 256) :
    expBlk L (ix2 (row h w) f)
      = Cert.Spec.expo x g1 be1 mu1 var1 wa1 ba1 g2 be2 mu2 var2 wa2 ba2 b h w f := by
  have hmax : multiReduction .maximumf [1] S4096 L 0xFF800000#32 reduces_S4096x256_S4096 (.inl rfl) rfl (ix1 (row h w))
        = (Finset.univ : Finset (Fin 256)).fold max (Ideal.ofBits .f32 0xFF800000#32) (fun k => L (ix2 (row h w) k)) :=
    rowMax_apply L _ _ _ (row h w)
  unfold expBlk
  rw [exp_apply, subf_apply, row_value_over_columns_apply, maximumf_apply, broadcast_apply, hmax]
  simp only [hL, Ideal.ofBits_def]
  rfl

/-- The dividing stage: the row's sum is the finite sum of the row's 256 exponentials. -/
theorem attn_apply (E : FVec Ideal S4096x256 .f32)
    (hE : ∀ (h w : Fin 64) (f : Fin 256),
      E (ix2 (row h w) f) = Cert.Spec.expo x g1 be1 mu1 var1 wa1 ba1 g2 be2 mu2 var2 wa2 ba2 b h w f)
    (h w : Fin 64) (f : Fin 256) :
    softBlk E (ix2 (row h w) f)
      = Cert.Spec.attn x g1 be1 mu1 var1 wa1 ba1 g2 be2 mu2 var2 wa2 ba2 b h w f := by
  have hsum : multiReduction .add [1] S4096 E 0x00000000#32 reduces_S4096x256_S4096 (.inl rfl) rfl (ix1 (row h w))
        = ∑ k : Fin 256, E (ix2 (row h w) k) :=
    Cert.KeepdimsSum.rowSum_apply E _ _ _ (row h w)
  unfold softBlk
  rw [divf_apply, row_value_over_columns_apply, hsum]
  simp only [hE]
  rfl

/-- THE BODY'S RESULT AT AN INDEX: entry (0, h, w, f) of the stored block is the specification's result at
    (h, w, f) of the point's image, given what the two earlier payloads and the second weights read as. -/
theorem out_block (v39 : FVec Ideal S64x64x256 .f32)
    (hv39 : ∀ (h w : Fin 64) (f : Fin 256), v39 (ix3 h w f) = Cert.Spec.taps x w3 b3 b h w f)
    (v89 : FVec Ideal S4096x32 .bf16)
    (hv89 : ∀ (h w : Fin 64) (a : Fin 32),
      v89 (ix2 (row h w) a) = Cert.Spec.norm2 x g1 be1 mu1 var1 wa1 ba1 g2 be2 mu2 var2 b h w a)
    (v91 : FVec Ideal S32x256 .bf16) (hv91 : ∀ (a : Fin 32) (f : Fin 256), v91 (ix2 a f) = wa2 (ix2 a f))
    (u : Fin 1) (h w : Fin 64) (f : Fin 256) :
    k0_pay1 (F := Ideal) v39 v89 v91 ba2 (ix4 u h w f)
      = Cert.Spec.out x w3 b3 g1 be1 mu1 var1 wa1 ba1 g2 be2 mu2 var2 wa2 ba2 b h w f := by
  rw [pay1_eq, shapeCast_abc_1abc_apply, mulf_apply,
    PairStack.shapeCast_nc_abc_apply _ shapeCasts_S4096x256_S64x64x256 h w f (row h w) rfl,
    attn_apply x g1 be1 mu1 var1 wa1 ba1 g2 be2 mu2 var2 wa2 ba2 b _
      (expo_apply x g1 be1 mu1 var1 wa1 ba1 g2 be2 mu2 var2 wa2 ba2 b _
        (logits_apply x g1 be1 mu1 var1 wa1 ba1 g2 be2 mu2 var2 wa2 ba2 b v89 hv89 v91 hv91)),
    hv39]
  rfl

end Stages

end Cert.KernelAttention

end
-- ==== Proof.KernelArray.lean ====
/-
  From the blocks to the whole result array.

  Each of the sixteen grid points stores one [1, 64, 64, 256] block: the body's last payload of that point's image
  and of the fourteen parameter arrays, each read whole. By the three payload lemmas that block is, entry by entry,
  the specification's result on the point's image; the sixteen blocks tile the [16, 64, 64, 256] result, so after the
  run the result array is the specification's result of the argument arrays, and the arguments are as launched.
-/
import proofs.«146532_j41154376631134_1_alg».proof.Proof.KernelBlocks
import proofs.«146532_j41154376631134_1_alg».proof.Proof.KernelTaps
import proofs.«146532_j41154376631134_1_alg».proof.Proof.KernelAttention

noncomputable section

namespace Cert.KernelArray

open Cert.KernelIdeal Cert.KernelIdeal.Gen Idealize.ShloMosaic Idealize.ShloMosaic.TcCoe Idealize.SL.Sem
open Idealize.ShloMosaic.ValueIdx
open Idealize.ShloMosaic.Pipeline (Dat)
open Cert.KernelBlocks Cert.KernelAttention

variable (m : (ℓ : Loc nD τ sig) → Buf (Elt Ideal) ℓ) (ρ : Dev nD → PrngReg)

/-- The specification's result of the argument arrays as a device holds them at launch. -/
def G (c : Dev nD) : S16x64x64x256.Idx → EReal :=
  Cert.Spec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

theorem hz4 : (![0, 0, 0, 0] : Fin 4 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The block the body leaves at a point, entry by entry, over the image block and the whole parameter arrays. -/
theorem stored_block (c : Dev nD) (t : Fin cfg0.N) (u : Fin 1) (h w : Fin 64) (f : Fin 256) :
    k0_pay1 (F := Ideal)
        (k0_pay3 (iblk m c 0 t) (V m c main_arg1) (V m c main_arg2))
        (k0_pay5 (k0_pay2 (iblk m c 0 t)) (V m c main_arg3) (V m c main_arg4) (V m c main_arg6) (k0_pay4 (V m c main_arg5)) (V m c main_arg7) (V m c main_arg8)
          (V m c main_arg9) (V m c main_arg10) (V m c main_arg11) (V m c main_arg12))
        (k0_pay6 (V m c main_arg13)) (V m c main_arg14) (ix4 u h w f)
      = G m c (ix4 (batch t) h w f) :=
  out_block (V m c main_arg0) (V m c main_arg1) (V m c main_arg2) (V m c main_arg3) (V m c main_arg4) (V m c main_arg5) (V m c main_arg6) (V m c main_arg7) (V m c main_arg8)
    (V m c main_arg9) (V m c main_arg10) (V m c main_arg11) (V m c main_arg12) (V m c main_arg13) (V m c main_arg14) (batch t)
    _ (fun h w f => Cert.KernelTaps.taps_block (V m c main_arg0) (V m c main_arg1) (V m c main_arg2) (batch t) (iblk m c 0 t)
        (fun h w k => image_block m c t h w k) h w f)
    _ (fun h w a => norm2_block (V m c main_arg0) (V m c main_arg3) (V m c main_arg4) (V m c main_arg5) (V m c main_arg6) (V m c main_arg7) (V m c main_arg8)
        (V m c main_arg9) (V m c main_arg10) (V m c main_arg11) (V m c main_arg12) (batch t) (k0_pay2 (iblk m c 0 t))
        (fun h w k => (pay2_apply (iblk m c 0 t) h w k).trans (image_block m c t h w k))
        (k0_pay4 (V m c main_arg5)) (fun k => pay4_apply (V m c main_arg5) k) h w a)
    _ (fun a f => pay6_apply (V m c main_arg13) a f) u h w f

/-- WHAT POINT `t` WRITES BACK is block `t` of the specification's result. -/
theorem flushed_eq (c : Dev nD) (t : Fin cfg0.N) :
    (dats m 0 c).flushed 15 t = ((cfg0.win 15).blk t).view.read (Elt Ideal) (G m c) := by
  rw [Cert.KernelIdeal.Value.flushed15]
  unfold out0_15
  rw [View.canon_unit_zero hz4]
  simp only [View.ld_unit_zero (S := S1x64x64x256) hz4, View.ld_unit_zero (S := S256x256) hz2,
    View.ld_unit_zero (S := S256) hz1, View.ld_unit_zero (S := S256x32) hz2, View.ld_unit_zero (S := S32) hz1,
    View.ld_unit_zero (S := S32x256) hz2]
  rw [whole_1 m c t, whole_2 m c t, whole_3 m c t, whole_4 m c t, whole_5 m c t, whole_6 m c t, whole_7 m c t,
    whole_8 m c t, whole_9 m c t, whole_10 m c t, whole_11 m c t, whole_12 m c t, whole_13 m c t, whole_14 m c t]
  funext y
  show k0_pay1 (F := Ideal)
        (k0_pay3 (iblk m c 0 t) (V m c main_arg1) (V m c main_arg2))
        (k0_pay5 (k0_pay2 (iblk m c 0 t)) (V m c main_arg3) (V m c main_arg4) (V m c main_arg6) (k0_pay4 (V m c main_arg5)) (V m c main_arg7) (V m c main_arg8)
          (V m c main_arg9) (V m c main_arg10) (V m c main_arg11) (V m c main_arg12))
        (k0_pay6 (V m c main_arg13)) (V m c main_arg14) y
      = G m c (((cfg0.win 15).blk t).view.emb y)
  rw [out_emb t y, eq_ix4 y]
  exact stored_block m c t (y 0) (y 1) (y 2) (y 3)

/-- THE ARRAY after the run: the sixteen blocks tile it, so it holds the specification's result. -/
theorem final (c : Dev nD) : (dats m 0 c).arrAt 15 cfg0.N = G m c :=
  (dats m 0 c).arrAt_eq_of_cover 15 (G m c) (fun t _ => flushed_eq m c t) cover15

/-- The kernel's run: every weakly fair execution ends with the result array at the specification's result of the
    arguments, and the arguments as launched. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final m c), (h c).2⟩)
    (Cert.KernelIdeal.Value.run_blocks m ρ)

end Cert.KernelArray

end
-- ==== Proof.lean ====
/-
  The kernel computes, one batch image per grid point, the product of a softmax attention weight and a 3 × 3 window
  sum of a channel-mixed, zero-padded image; the reference computes the same over the whole batch at once. On the
  extended reals both are ONE function of the fifteen argument arrays, `Cert.Spec.result` (Proof/Spec.lean): the two
  programs apply the same exact operations in the same order with the same literal words, and differ only in layout —
  the kernel flattens an image's pixels into 4096 rows for its three matrix products, pads by concatenating borders
  where the reference calls a pad, and reduces rows where the reference reduces the last axis. No law of arithmetic is
  needed, so the precondition (finite inputs) is never opened.

  * `Cert.RefStages.ref_eq_result` (Proof/RefValuePath.lean, Proof/RefAttention.lean): the reference's result term is
    that function, stage by stage;
  * `Cert.KernelTaps.taps_block`, `Cert.KernelAttention.norm2_block`, `Cert.KernelAttention.out_block`: the kernel
    body's three payloads at an index, over one image;
  * `Cert.KernelBlocks`, `Cert.KernelArray.run`: each point's block is its image of the arguments, the sixteen blocks
    tile the result, so the kernel's run ends with the result array at that function of the arguments.

  The three frames are the generated ones (the reference's is its generated run with the result dropped), the
  idealization rewrote no operation, and the algebraic claim sets the two runs side by side.
-/
import proofs.«146532_j41154376631134_1_alg».proof.Defs
import proofs.«146532_j41154376631134_1_alg».proof.Proof.Gen.Kernel
import proofs.«146532_j41154376631134_1_alg».proof.Proof.Gen.Kernel.Skeleton
import proofs.«146532_j41154376631134_1_alg».proof.Proof.Gen.Kernel.Launch
import proofs.«146532_j41154376631134_1_alg».proof.Proof.Gen.Kernel.Points
import proofs.«146532_j41154376631134_1_alg».proof.Proof.Gen.Kernel.Frame
import proofs.«146532_j41154376631134_1_alg».proof.Proof.Gen.KernelIdeal
import proofs.«146532_j41154376631134_1_alg».proof.Proof.Gen.KernelIdeal.Skeleton
import proofs.«146532_j41154376631134_1_alg».proof.Proof.Gen.KernelIdeal.Launch
import proofs.«146532_j41154376631134_1_alg».proof.Proof.Gen.KernelIdeal.Points
import proofs.«146532_j41154376631134_1_alg».proof.Proof.Gen.KernelIdeal.Frame
import proofs.«146532_j41154376631134_1_alg».proof.Proof.Gen.ReferenceIdeal
import proofs.«146532_j41154376631134_1_alg».proof.Proof.Gen.Pre_finite_inputs
import proofs.«146532_j41154376631134_1_alg».proof.Proof.Gen.KernelIdeal.Value
import proofs.«146532_j41154376631134_1_alg».proof.Proof.Gen.ReferenceIdeal.Run
import proofs.«146532_j41154376631134_1_alg».proof.Proof.Gen.ReferenceIdeal.Read
import proofs.«146532_j41154376631134_1_alg».proof.Proof.RefAttention
import proofs.«146532_j41154376631134_1_alg».proof.Proof.KernelArray
import Idealize.ShloMosaic.Adequacy
import Idealize.ShloMosaic.Init

noncomputable section

namespace Cert.Proof

open Idealize.ShloMosaic Idealize.SL.Sem Cert.Kernel

/-- The word-level kernel runs and leaves its arguments as launched. -/
theorem frame_kernel [Cert.Kernel.Facts] [Cert.Pre_finite_inputs.Facts] : Cert.frame_Kernel :=
  fun m ρ _ => Cert.Kernel.Gen.frame m ρ

/-- So does the idealized kernel. -/
theorem frame_kernelIdeal [Cert.KernelIdeal.Facts] [Cert.Pre_finite_inputs.Facts] : Cert.frame_KernelIdeal :=
  fun m ρ _ => Cert.KernelIdeal.Gen.frame m ρ

/-- The reference's frame is its run with the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- The idealization rewrote no operation. -/
theorem preserves : Cert.preserves_Kernel_KernelIdeal := trivial

/-- From memories agreeing on the arguments both programs end with the result array at `Cert.Spec.result` of the
    arguments: the kernel by its blocks, the reference by its stages. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v75_eq, Cert.RefStages.ref_eq_result]
  obtain ⟨a0, a1, a2, a3, a4, a5, a6, a7, a8, a9, a10, a11, a12, a13, a14⟩ := hagree c
  rw [a0, a1, a2, a3, a4, a5, a6, a7, a8, a9, a10, a11, a12, a13, a14]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
